-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x7x7 : Shape := ⟨4, ![2048, 256, 7, 7]⟩
abbrev S64x49x49 : Shape := ⟨3, ![64, 49, 49]⟩
abbrev S169x8 : Shape := ⟨2, ![169, 8]⟩
abbrev S49x49 : Shape := ⟨2, ![49, 49]⟩
abbrev S_ : Shape := ⟨0, ![]⟩

class Facts : Prop where
  bcast_S_S2048x256x7x7 : S_.BroadcastsInDim S2048x256x7x7 (![] : Fin 0 → Fin S2048x256x7x7.rank)
  reducesTo_S2048x256x7x7_S_d0_1_2_3 : S2048x256x7x7.ReducesTo [0, 1, 2, 3] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S169x8 : S_.BroadcastsInDim S169x8 (![] : Fin 0 → Fin S169x8.rank)
  reducesTo_S169x8_S_d0_1 : S169x8.ReducesTo [0, 1] S_

variable [Facts]

def fn_part1 {F : FTy → Type} [FloatOps F] (main_arg4 : FVec F S169x8 .f32) (main_v13 : IVec S_ 1) (main_v16 : IVec S64x49x49 1) : IVec S_ 1 :=
  let main_c_5 : IVec S_ 1 := constantI S_ 1 1#1
  let main_v17 : IVec S_ 1 := (fun x v => Host.reduce IntOp.andi x v reducesTo_S64x49x49_S_d0_1_2 h_S_) main_v16 main_c_5
  let main_v18 : IVec S_ 1 := andi main_v13 main_v17
  let main_v19 : FVec F S169x8 .f32 := Host.absf main_arg4
  let main_cst_6 : FVec F S_ .f32 := constant S_ .f32 0x7F800000#32
  let main_v20 : FVec F S169x8 .f32 := broadcastInDim S169x8 ![] bcast_S_S169x8 main_cst_6
  let main_v21 : IVec S169x8 1 := cmpf .olt main_v19 main_v20
  let main_c_7 : IVec S_ 1 := constantI S_ 1 1#1
  let main_v22 : IVec S_ 1 := (fun x v => Host.reduce IntOp.andi x v reducesTo_S169x8_S_d0_1 h_S_) main_v21 main_c_7
  let main_v23 : IVec S_ 1 := andi main_v18 main_v22
  main_v23

def fn {F : FTy → Type} [FloatOps F] (main_arg0 : FVec F S2048x256x7x7 .f32) (main_arg1 : FVec F S2048x256x7x7 .f32) (main_arg2 : FVec F S2048x256x7x7 .f32) (main_arg3 : FVec F S64x49x49 .f32) (main_arg4 : FVec F S169x8 .f32) (main_arg5 : IVec S49x49 32) : IVec S_ 1 :=
  let main_v0 : FVec F S2048x256x7x7 .f32 := Host.absf main_arg0
  let main_cst : FVec F S_ .f32 := constant S_ .f32 0x7F800000#32
  let main_v1 : FVec F S2048x256x7x7 .f32 := broadcastInDim S2048x256x7x7 ![] bcast_S_S2048x256x7x7 main_cst
  let main_v2 : IVec S2048x256x7x7 1 := cmpf .olt main_v0 main_v1
  let main_c : IVec S_ 1 := constantI S_ 1 1#1
  let main_v3 : IVec S_ 1 := (fun x v => Host.reduce IntOp.andi x v reducesTo_S2048x256x7x7_S_d0_1_2_3 h_S_) main_v2 main_c
  let main_v4 : FVec F S2048x256x7x7 .f32 := Host.absf main_arg1
  let main_cst_0 : FVec F S_ .f32 := constant S_ .f32 0x7F800000#32
  let main_v5 : FVec F S2048x256x7x7 .f32 := broadcastInDim S2048x256x7x7 ![] bcast_S_S2048x256x7x7 main_cst_0
  let main_v6 : IVec S2048x256x7x7 1 := cmpf .olt main_v4 main_v5
  let main_c_1 : IVec S_ 1 := constantI S_ 1 1#1
  let main_v7 : IVec S_ 1 := (fun x v => Host.reduce IntOp.andi x v reducesTo_S2048x256x7x7_S_d0_1_2_3 h_S_) main_v6 main_c_1
  let main_v8 : IVec S_ 1 := andi main_v3 main_v7
  let main_v9 : FVec F S2048x256x7x7 .f32 := Host.absf main_arg2
  let main_cst_2 : FVec F S_ .f32 := constant S_ .f32 0x7F800000#32
  let main_v10 : FVec F S2048x256x7x7 .f32 := broadcastInDim S2048x256x7x7 ![] bcast_S_S2048x256x7x7 main_cst_2
  let main_v11 : IVec S2048x256x7x7 1 := cmpf .olt main_v9 main_v10
  let main_c_3 : IVec S_ 1 := constantI S_ 1 1#1
  let main_v12 : IVec S_ 1 := (fun x v => Host.reduce IntOp.andi x v reducesTo_S2048x256x7x7_S_d0_1_2_3 h_S_) main_v11 main_c_3
  let main_v13 : IVec S_ 1 := andi main_v8 main_v12
  let main_v14 : FVec F S64x49x49 .f32 := Host.absf main_arg3
  let main_cst_4 : FVec F S_ .f32 := constant S_ .f32 0x7F800000#32
  let main_v15 : FVec F S64x49x49 .f32 := broadcastInDim S64x49x49 ![] bcast_S_S64x49x49 main_cst_4
  let main_v16 : IVec S64x49x49 1 := cmpf .olt main_v14 main_v15
  fn_part1 (F := F) main_arg4 main_v13 main_v16
-- ==== Kernel.lean ====
abbrev S2048x256x7x7 : Shape := ⟨4, ![2048, 256, 7, 7]⟩
abbrev S64x49x49 : Shape := ⟨3, ![64, 49, 49]⟩
abbrev S169x8 : Shape := ⟨2, ![169, 8]⟩
abbrev S49x49 : Shape := ⟨2, ![49, 49]⟩
abbrev S2048x8x32x49 : Shape := ⟨4, ![2048, 8, 32, 49]⟩
abbrev S2401 : Shape := ⟨1, ![2401]⟩
abbrev S_ : Shape := ⟨0, ![]⟩
abbrev S2401x1 : Shape := ⟨2, ![2401, 1]⟩
abbrev S2401x8 : Shape := ⟨2, ![2401, 8]⟩
abbrev S49x49x8 : Shape := ⟨3, ![49, 49, 8]⟩
abbrev S8x49x49 : Shape := ⟨3, ![8, 49, 49]⟩
abbrev S2048x8x49x49 : Shape := ⟨4, ![2048, 8, 49, 49]⟩
abbrev S16x8x32x49 : Shape := ⟨4, ![16, 8, 32, 49]⟩
abbrev S16x49x49 : Shape := ⟨3, ![16, 49, 49]⟩
abbrev S16x8x49x49 : Shape := ⟨4, ![16, 8, 49, 49]⟩
abbrev S128x32x49 : Shape := ⟨3, ![128, 32, 49]⟩
abbrev S128x49x49 : Shape := ⟨3, ![128, 49, 49]⟩
abbrev S1x8x49x49 : Shape := ⟨4, ![1, 8, 49, 49]⟩
abbrev S16x1x49x49 : Shape := ⟨4, ![16, 1, 49, 49]⟩
abbrev S16x8x49 : Shape := ⟨3, ![16, 8, 49]⟩
abbrev S16x8x49x1 : Shape := ⟨4, ![16, 8, 49, 1]⟩

abbrev nBuf : Space → Nat
  | .hbm => 23
  | .vmem => 11
  | .smem => 0
  | _ => 0

abbrev bufTy : (tb : Table) → Fin (tcTables nBuf tb) → BufTy
  | .hbm, ⟨0, _⟩ => ⟨S2048x256x7x7, .f32⟩
  | .hbm, ⟨1, _⟩ => ⟨S2048x256x7x7, .f32⟩
  | .hbm, ⟨2, _⟩ => ⟨S2048x256x7x7, .f32⟩
  | .hbm, ⟨3, _⟩ => ⟨S64x49x49, .f32⟩
  | .hbm, ⟨4, _⟩ => ⟨S169x8, .f32⟩
  | .hbm, ⟨5, _⟩ => ⟨S49x49, .i32⟩
  | .hbm, ⟨6, _⟩ => ⟨S2048x8x32x49, .f32⟩
  | .hbm, ⟨7, _⟩ => ⟨S2048x8x32x49, .f32⟩
  | .hbm, ⟨8, _⟩ => ⟨S2401, .i32⟩
  | .hbm, ⟨9, _⟩ => ⟨S_, .i32⟩
  | .hbm, ⟨10, _⟩ => ⟨S2401, .i32⟩
  | .hbm, ⟨11, _⟩ => ⟨S2401, .i1⟩
  | .hbm, ⟨12, _⟩ => ⟨S_, .i32⟩
  | .hbm, ⟨13, _⟩ => ⟨S2401, .i32⟩
  | .hbm, ⟨14, _⟩ => ⟨S2401, .i32⟩
  | .hbm, ⟨15, _⟩ => ⟨S2401, .i32⟩
  | .hbm, ⟨16, _⟩ => ⟨S2401x1, .i32⟩
  | .hbm, ⟨17, _⟩ => ⟨S2401x8, .f32⟩
  | .hbm, ⟨18, _⟩ => ⟨S49x49x8, .f32⟩
  | .hbm, ⟨19, _⟩ => ⟨S8x49x49, .f32⟩
  | .hbm, ⟨20, _⟩ => ⟨S2048x8x32x49, .f32⟩
  | .hbm, ⟨21, _⟩ => ⟨S2048x8x49x49, .f32⟩
  | .hbm, ⟨22, _⟩ => ⟨S2048x256x7x7, .f32⟩
  | .local _ .vmem, ⟨0, _⟩ => ⟨S16x8x32x49, .f32⟩
  | .local _ .vmem, ⟨1, _⟩ => ⟨S16x8x32x49, .f32⟩
  | .local _ .vmem, ⟨2, _⟩ => ⟨S16x8x32x49, .f32⟩
  | .local _ .vmem, ⟨3, _⟩ => ⟨S16x8x32x49, .f32⟩
  | .local _ .vmem, ⟨4, _⟩ => ⟨S16x49x49, .f32⟩
  | .local _ .vmem, ⟨5, _⟩ => ⟨S16x49x49, .f32⟩
  | .local _ .vmem, ⟨6, _⟩ => ⟨S8x49x49, .f32⟩
  | .local _ .vmem, ⟨7, _⟩ => ⟨S16x8x32x49, .f32⟩
  | .local _ .vmem, ⟨8, _⟩ => ⟨S16x8x32x49, .f32⟩
  | .local _ .vmem, ⟨9, _⟩ => ⟨S16x8x49x49, .f32⟩
  | .local _ .vmem, ⟨10, _⟩ => ⟨S16x8x49x49, .f32⟩
  | _, _ => ⟨S2048x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x8x32x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x32x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x49x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x49x49 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x8x32x49 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x8x49x49 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x256x7x7_S2048x8x32x49 : S2048x256x7x7.ShapeCasts S2048x8x32x49
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x8_S49x49x8 : S2401x8.ShapeCasts S49x49x8
  transposes_S49x49x8_S8x49x49_2_0_1 : S49x49x8.Transposes [2, 0, 1] S8x49x49
  inb_S16x8x32x49_S16x8x32x49_0_0_0_0 : ∀ a, (![0, 0, 0, 0] : Fin 4 → Nat) a + S16x8x32x49.size a ≤ S16x8x32x49.size a
  h_S16x8x32x49 : 0 < S16x8x32x49.numel
  shapeCasts_S16x8x32x49_S16x8x32x49 : S16x8x32x49.ShapeCasts S16x8x32x49
  bitsLt_bf16_f32 : FTy.bits .bf16 < FTy.bits .f32
  shapeCasts_S16x8x32x49_S128x32x49 : S16x8x32x49.ShapeCasts S128x32x49
  shapeCasts_S128x49x49_S16x8x49x49 : S128x49x49.ShapeCasts S16x8x49x49
  inb_S8x49x49_S8x49x49_0_0_0 : ∀ a, (![0, 0, 0] : Fin 3 → Nat) a + S8x49x49.size a ≤ S8x49x49.size a
  h_S8x49x49 : 0 < S8x49x49.numel
  shapeCasts_S8x49x49_S8x49x49 : S8x49x49.ShapeCasts S8x49x49
  shapeCasts_S8x49x49_S1x8x49x49 : S8x49x49.ShapeCasts S1x8x49x49
  broadcasts_S1x8x49x49_S16x8x49x49 : S1x8x49x49.Broadcasts S16x8x49x49
  inb_S16x49x49_S16x49x49_0_0_0 : ∀ a, (![0, 0, 0] : Fin 3 → Nat) a + S16x49x49.size a ≤ S16x49x49.size a
  h_S16x49x49 : 0 < S16x49x49.numel
  shapeCasts_S16x49x49_S16x1x49x49 : S16x49x49.ShapeCasts S16x1x49x49
  broadcasts_S16x1x49x49_S16x8x49x49 : S16x1x49x49.Broadcasts S16x8x49x49
  reduces_S16x8x49x49_S16x8x49 : S16x8x49x49.Reduces [3] S16x8x49
  shapeCasts_S16x8x49_S16x8x49x1 : S16x8x49.ShapeCasts S16x8x49x1
  broadcasts_S16x8x49x1_S16x8x49x49 : S16x8x49x1.Broadcasts S16x8x49x49
  inb_S16x8x49x49_S16x8x49x49_0_0_0_0 : ∀ a, (![0, 0, 0, 0] : Fin 4 → Nat) a + S16x8x49x49.size a ≤ S16x8x49x49.size a
  h_S16x8x49x49 : 0 < S16x8x49x49.numel
  shapeCasts_S16x8x49x49_S128x49x49 : S16x8x49x49.ShapeCasts S128x49x49
  shapeCasts_S128x32x49_S16x8x32x49 : S128x32x49.ShapeCasts S16x8x32x49
  shapeCasts_S2048x8x32x49_S2048x256x7x7 : S2048x8x32x49.ShapeCasts S2048x256x7x7
  gather_S169x8_S2401x1_S2401x8_1_0_n_n_0_1_18_wf : GatherDims.WF S169x8 S2401x1 S2401x8 [1] [0] [] [0] [] 1 ![1, 8]
  dot_S128x32x49_S128x32x49_S128x49x49_1_1_2_2_0_0_wf : DotDims.WF S128x32x49 S128x32x49 S128x49x49 [1] [1] [2] [2] [0] [0]
  dot_S128x32x49_S128x49x49_S128x32x49_2_2_1_1_0_0_wf : DotDims.WF S128x32x49 S128x49x49 S128x32x49 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x32x49.size a ≤ S2048x8x32x49.size a
  hwx0_0 : ∀ i : grid0.Coords, EltTy.bits .f32 = 32 ∨ (Rect.block (s := S2048x8x32x49) S16x8x32x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x32x49.size a ≤ S2048x8x32x49.size a
  hwx0_1 : ∀ i : grid0.Coords, EltTy.bits .f32 = 32 ∨ (Rect.block (s := S2048x8x32x49) S16x8x32x49.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x49x49.size a ≤ S64x49x49.size a
  hwx0_2 : ∀ i : grid0.Coords, EltTy.bits .f32 = 32 ∨ (Rect.block (s := S64x49x49) S16x49x49.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x49x49.size a ≤ S8x49x49.size a
  hwx0_3 : ∀ i : grid0.Coords, EltTy.bits .f32 = 32 ∨ (Rect.block (s := S8x49x49) S8x49x49.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x8x32x49.size a ≤ S2048x8x32x49.size a
  hwx0_4 : ∀ i : grid0.Coords, EltTy.bits .f32 = 32 ∨ (Rect.block (s := S2048x8x32x49) S16x8x32x49.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x8x49x49.size a ≤ S2048x8x49x49.size a
  hwx0_5 : ∀ i : grid0.Coords, EltTy.bits .f32 = 32 ∨ (Rect.block (s := S2048x8x49x49) S16x8x49x49.size (cc0_transform_5 i) (hinb0_5 i)).WholeWords (EltTy.packing .f32)

variable [Facts₀]

def gather_S169x8_S2401x1_S2401x8_1_0_n_n_0_1_18 : GatherDims S169x8 S2401x1 S2401x8 where
  offsetDims := [1]
  collapsedSliceDims := [0]
  operandBatchingDims := []
  startIndicesBatchingDims := []
  startIndexMap := [0]
  indexVectorDim := 1
  sliceSizes := ![1, 8]
  wf := gather_S169x8_S2401x1_S2401x8_1_0_n_n_0_1_18_wf
def dot_S128x32x49_S128x32x49_S128x49x49_1_1_2_2_0_0 : DotDims S128x32x49 S128x32x49 S128x49x49 where
  lhsContracting := [1]
  rhsContracting := [1]
  lhsNonContracting := [2]
  rhsNonContracting := [2]
  lhsBatch := [0]
  rhsBatch := [0]
  wf := dot_S128x32x49_S128x32x49_S128x49x49_1_1_2_2_0_0_wf
def dot_S128x32x49_S128x49x49_S128x32x49_2_2_1_1_0_0 : DotDims S128x32x49 S128x49x49 S128x32x49 where
  lhsContracting := [2]
  rhsContracting := [2]
  lhsNonContracting := [1]
  rhsNonContracting := [1]
  lhsBatch := [0]
  rhsBatch := [0]
  wf := dot_S128x32x49_S128x49x49_S128x32x49_2_2_1_1_0_0_wf

abbrev win0_0 : Pipeline.Window sig grid0 :=
  Pipeline.Window.ofSpec (Memref.whole main_v0) S16x8x32x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x8x32x49.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x49x49.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8x49x49.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S16x8x32x49.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S16x8x49x49.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x256x7x7 : Shape := ⟨4, ![2048, 256, 7, 7]⟩
abbrev S64x49x49 : Shape := ⟨3, ![64, 49, 49]⟩
abbrev S169x8 : Shape := ⟨2, ![169, 8]⟩
abbrev S49x49 : Shape := ⟨2, ![49, 49]⟩
abbrev S2048x8x32x49 : Shape := ⟨4, ![2048, 8, 32, 49]⟩
abbrev S2048x8x49x49 : Shape := ⟨4, ![2048, 8, 49, 49]⟩
abbrev S_ : Shape := ⟨0, ![]⟩
abbrev S2401 : Shape := ⟨1, ![2401]⟩
abbrev S2401x1 : Shape := ⟨2, ![2401, 1]⟩
abbrev S2401x8 : Shape := ⟨2, ![2401, 8]⟩
abbrev S49x49x8 : Shape := ⟨3, ![49, 49, 8]⟩
abbrev S8x49x49 : Shape := ⟨3, ![8, 49, 49]⟩
abbrev S1x8x49x49 : Shape := ⟨4, ![1, 8, 49, 49]⟩
abbrev S32x64x8x49x49 : Shape := ⟨5, ![32, 64, 8, 49, 49]⟩
abbrev S1x64x1x49x49 : Shape := ⟨5, ![1, 64, 1, 49, 49]⟩
abbrev S2048x8x49 : Shape := ⟨3, ![2048, 8, 49]⟩
abbrev S2048x8x49x1 : Shape := ⟨4, ![2048, 8, 49, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x256x7x7, .f32⟩
  | .hbm, ⟨1, _⟩ => ⟨S2048x256x7x7, .f32⟩
  | .hbm, ⟨2, _⟩ => ⟨S2048x256x7x7, .f32⟩
  | .hbm, ⟨3, _⟩ => ⟨S64x49x49, .f32⟩
  | .hbm, ⟨4, _⟩ => ⟨S169x8, .f32⟩
  | .hbm, ⟨5, _⟩ => ⟨S49x49, .i32⟩
  | .hbm, ⟨6, _⟩ => ⟨S2048x8x32x49, .f32⟩
  | .hbm, ⟨7, _⟩ => ⟨S2048x8x32x49, .f32⟩
  | .hbm, ⟨8, _⟩ => ⟨S2048x8x49x49, .f32⟩
  | .hbm, ⟨9, _⟩ => ⟨S_, .f32⟩
  | .hbm, ⟨10, _⟩ => ⟨S2048x8x49x49, .f32⟩
  | .hbm, ⟨11, _⟩ => ⟨S2048x8x49x49, .f32⟩
  | .hbm, ⟨12, _⟩ => ⟨S2401, .i32⟩
  | .hbm, ⟨13, _⟩ => ⟨S_, .i32⟩
  | .hbm, ⟨14, _⟩ => ⟨S2401, .i32⟩
  | .hbm, ⟨15, _⟩ => ⟨S2401, .i1⟩
  | .hbm, ⟨16, _⟩ => ⟨S_, .i32⟩
  | .hbm, ⟨17, _⟩ => ⟨S2401, .i32⟩
  | .hbm, ⟨18, _⟩ => ⟨S2401, .i32⟩
  | .hbm, ⟨19, _⟩ => ⟨S2401, .i32⟩
  | .hbm, ⟨20, _⟩ => ⟨S2401x1, .i32⟩
  | .hbm, ⟨21, _⟩ => ⟨S2401x8, .f32⟩
  | .hbm, ⟨22, _⟩ => ⟨S49x49x8, .f32⟩
  | .hbm, ⟨23, _⟩ => ⟨S8x49x49, .f32⟩
  | .hbm, ⟨24, _⟩ => ⟨S1x8x49x49, .f32⟩
  | .hbm, ⟨25, _⟩ => ⟨S2048x8x49x49, .f32⟩
  | .hbm, ⟨26, _⟩ => ⟨S2048x8x49x49, .f32⟩
  | .hbm, ⟨27, _⟩ => ⟨S32x64x8x49x49, .f32⟩
  | .hbm, ⟨28, _⟩ => ⟨S1x64x1x49x49, .f32⟩
  | .hbm, ⟨29, _⟩ => ⟨S32x64x8x49x49, .f32⟩
  | .hbm, ⟨30, _⟩ => ⟨S32x64x8x49x49, .f32⟩
  | .hbm, ⟨31, _⟩ => ⟨S2048x8x49x49, .f32⟩
  | .hbm, ⟨32, _⟩ => ⟨S_, .f32⟩
  | .hbm, ⟨33, _⟩ => ⟨S2048x8x49, .f32⟩
  | .hbm, ⟨34, _⟩ => ⟨S_, .f32⟩
  | .hbm, ⟨35, _⟩ => ⟨S2048x8x49, .f32⟩
  | .hbm, ⟨36, _⟩ => ⟨S2048x8x49, .f32⟩
  | .hbm, ⟨37, _⟩ => ⟨S2048x8x49x1, .f32⟩
  | .hbm, ⟨38, _⟩ => ⟨S2048x8x49x49, .f32⟩
  | .hbm, ⟨39, _⟩ => ⟨S2048x8x49x49, .f32⟩
  | .hbm, ⟨40, _⟩ => ⟨S2048x8x49x49, .f32⟩
  | .hbm, ⟨41, _⟩ => ⟨S_, .f32⟩
  | .hbm, ⟨42, _⟩ => ⟨S2048x8x49, .f32⟩
  | .hbm, ⟨43, _⟩ => ⟨S2048x8x49x1, .f32⟩
  | .hbm, ⟨44, _⟩ => ⟨S2048x8x49x49, .f32⟩
  | .hbm, ⟨45, _⟩ => ⟨S2048x8x49x49, .f32⟩
  | .hbm, ⟨46, _⟩ => ⟨S2048x8x32x49, .f32⟩
  | .hbm, ⟨47, _⟩ => ⟨S2048x256x7x7, .f32⟩
  | _, _ => ⟨S2048x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  shapeCasts_S2048x256x7x7_S2048x8x32x49 : S2048x256x7x7.ShapeCasts S2048x8x32x49
  bcast_S_S2048x8x49x49 : S_.BroadcastsInDim S2048x8x49x49 (![] : Fin 0 → Fin S2048x8x49x49.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x8_S49x49x8 : S2401x8.ShapeCasts S49x49x8
  transposes_S49x49x8_S8x49x49_2_0_1 : S49x49x8.Transposes [2, 0, 1] S8x49x49
  bcast_S8x49x49_S1x8x49x49_1_2_3 : S8x49x49.BroadcastsInDim S1x8x49x49 (![1, 2, 3] : Fin 3 → Fin S1x8x49x49.rank)
  bcast_S1x8x49x49_S2048x8x49x49_0_1_2_3 : S1x8x49x49.BroadcastsInDim S2048x8x49x49 (![0, 1, 2, 3] : Fin 4 → Fin S2048x8x49x49.rank)
  shapeCasts_S2048x8x49x49_S32x64x8x49x49 : S2048x8x49x49.ShapeCasts S32x64x8x49x49
  bcast_S64x49x49_S1x64x1x49x49_1_3_4 : S64x49x49.BroadcastsInDim S1x64x1x49x49 (![1, 3, 4] : Fin 3 → Fin S1x64x1x49x49.rank)
  bcast_S1x64x1x49x49_S32x64x8x49x49_0_1_2_3_4 : S1x64x1x49x49.BroadcastsInDim S32x64x8x49x49 (![0, 1, 2, 3, 4] : Fin 5 → Fin S32x64x8x49x49.rank)
  shapeCasts_S32x64x8x49x49_S2048x8x49x49 : S32x64x8x49x49.ShapeCasts S2048x8x49x49
  reducesTo_S2048x8x49x49_S2048x8x49_d3 : S2048x8x49x49.ReducesTo [3] S2048x8x49
  h_S_ : 0 < S_.numel
  bcast_S_S2048x8x49 : S_.BroadcastsInDim S2048x8x49 (![] : Fin 0 → Fin S2048x8x49.rank)
  bcast_S2048x8x49_S2048x8x49x1_0_1_2 : S2048x8x49.BroadcastsInDim S2048x8x49x1 (![0, 1, 2] : Fin 3 → Fin S2048x8x49x1.rank)
  bcast_S2048x8x49x1_S2048x8x49x49_0_1_2_3 : S2048x8x49x1.BroadcastsInDim S2048x8x49x49 (![0, 1, 2, 3] : Fin 4 → Fin S2048x8x49x49.rank)
  shapeCasts_S2048x8x32x49_S2048x256x7x7 : S2048x8x32x49.ShapeCasts S2048x256x7x7
  dot_S2048x8x32x49_S2048x8x32x49_S2048x8x49x49_2_2_3_3_01_01_wf : DotDims.WF S2048x8x32x49 S2048x8x32x49 S2048x8x49x49 [2] [2] [3] [3] [0, 1] [0, 1]
  gather_S169x8_S2401x1_S2401x8_1_0_n_n_0_1_18_wf : GatherDims.WF S169x8 S2401x1 S2401x8 [1] [0] [] [0] [] 1 ![1, 8]
  dot_S2048x8x32x49_S2048x8x49x49_S2048x8x32x49_3_3_2_2_01_01_wf : DotDims.WF S2048x8x32x49 S2048x8x49x49 S2048x8x32x49 [3] [3] [2] [2] [0, 1] [0, 1]

variable [Facts₀]

def dot_S2048x8x32x49_S2048x8x32x49_S2048x8x49x49_2_2_3_3_01_01 : DotDims S2048x8x32x49 S2048x8x32x49 S2048x8x49x49 where
  lhsContracting := [2]
  rhsContracting := [2]
  lhsNonContracting := [3]
  rhsNonContracting := [3]
  lhsBatch := [0, 1]
  rhsBatch := [0, 1]
  wf := dot_S2048x8x32x49_S2048x8x32x49_S2048x8x49x49_2_2_3_3_01_01_wf
def gather_S169x8_S2401x1_S2401x8_1_0_n_n_0_1_18 : GatherDims S169x8 S2401x1 S2401x8 where
  offsetDims := [1]
  collapsedSliceDims := [0]
  operandBatchingDims := []
  startIndicesBatchingDims := []
  startIndexMap := [0]
  indexVectorDim := 1
  sliceSizes := ![1, 8]
  wf := gather_S169x8_S2401x1_S2401x8_1_0_n_n_0_1_18_wf
def dot_S2048x8x32x49_S2048x8x49x49_S2048x8x32x49_3_3_2_2_01_01 : DotDims S2048x8x32x49 S2048x8x49x49 S2048x8x32x49 where
  lhsContracting := [3]
  rhsContracting := [3]
  lhsNonContracting := [2]
  rhsNonContracting := [2]
  lhsBatch := [0, 1]
  rhsBatch := [0, 1]
  wf := dot_S2048x8x32x49_S2048x8x49x49_S2048x8x32x49_3_3_2_2_01_01_wf

class Facts : Prop extends Facts₀ where

variable [Facts]
-- ==== Proof.WindowHead.lean ====
/-
  Window attention for ONE head of ONE window, on the extended reals.

  A window has 49 positions (7 x 7) and a head has 32 channels.  For the head's query and key slabs
  `q, k : 32 x 49`, the head's relative-position bias `bias : 49 x 49` and the window's shift mask
  `mask : 49 x 49`:

    logit t s = (sum over c of q c t * k c s) * scale + bias t s + mask t s
    attn  t s = exp (logit t s - rowMax (logit t)) / sum over s' of exp (logit t s' - rowMax (logit t))
    score c t = sum over s of k c s * attn t s            (the values are the keys)

  `scale` is the binary32 word nearest to 32^(-1/2); it is never evaluated: both programs carry the same word.
  `rowMax` is the maximum of a row, started from minus infinity and met once more with minus infinity, as both
  programs spell it.  The whole-array forms `attnArr` / `scoreArr` read batch entry `b`, head `h` from the
  query and key arrays [2048, 8, 32, 49], head `h` of the bias [8, 49, 49] and window `b mod 64` of the mask
  [64, 49, 49].
-/
import Idealize.ShloMosaic.PureOps.Ideal
import Idealize.ShloMosaic.PureOps.Ideal.Laws
import Idealize.ShloMosaic.Lib.ValueIdx

noncomputable section

namespace Cert.WindowHead

open Idealize.ShloMosaic Idealize.ShloMosaic.ValueIdx

/-- The scale both programs multiply the query-key products by: the binary32 word of 0.176776692. -/
def scale : EReal := Ideal.ofBits .f32 0x3E3504F3#32

/-- Minus infinity, as the binary32 word both programs start a row maximum from. -/
def negInf : EReal := Ideal.ofBits .f32 0xFF800000#32

/-- Scaled query-key product of positions `t`, `s`, plus the head's bias, plus the window's mask. -/
def logit (q k : Fin 32 → Fin 49 → EReal) (bias mask : Fin 49 → Fin 49 → EReal) (t s : Fin 49) : EReal :=
  (∑ c : Fin 32, q c t * k c s) * scale + bias t s + mask t s

/-- A row's maximum, from minus infinity. -/
def rowMax (row : Fin 49 → EReal) : EReal :=
  max negInf ((Finset.univ : Finset (Fin 49)).fold max negInf row)

/-- The softmax of a row `L t`, entry `s`: shifted by the row maximum, exponentiated, normalised by the row's sum. -/
def softmax (L : Fin 49 → Fin 49 → EReal) (t s : Fin 49) : EReal :=
  Ideal.div (Ideal.exp (L t s - rowMax (L t))) (∑ s' : Fin 49, Ideal.exp (L t s' - rowMax (L t)))

/-- Attention weights of one head of one window. -/
def attn (q k : Fin 32 → Fin 49 → EReal) (bias mask : Fin 49 → Fin 49 → EReal) (t s : Fin 49) : EReal :=
  softmax (logit q k bias mask) t s

/-- The head's output: the keys (which stand in for the values) averaged with the attention weights. -/
def score (k : Fin 32 → Fin 49 → EReal) (a : Fin 49 → Fin 49 → EReal) (c : Fin 32) (t : Fin 49) : EReal :=
  ∑ s : Fin 49, k c s * a t s

/-! ## The whole arrays -/

/-- The mask window of batch entry `b`: `b mod 64`. -/
def maskWin (b : Fin 2048) : Fin 64 := ⟨b.val % 64, Nat.mod_lt _ (by decide)⟩

/-- Attention weights at batch entry `b`, head `h`, positions `t`, `s`, from the whole arrays. -/
def attnAt (Q K : (⟨4, ![2048, 8, 32, 49]⟩ : Shape).Idx → EReal) (M : (⟨3, ![64, 49, 49]⟩ : Shape).Idx → EReal)
    (B : (⟨3, ![8, 49, 49]⟩ : Shape).Idx → EReal) (b : Fin 2048) (h : Fin 8) (t s : Fin 49) : EReal :=
  attn (fun c t' => Q (ix4 b h c t')) (fun c s' => K (ix4 b h c s')) (fun t' s' => B (ix3 h t' s'))
    (fun t' s' => M (ix3 (maskWin b) t' s')) t s

/-- The attention array [2048, 8, 49, 49]. -/
def attnArr (Q K : (⟨4, ![2048, 8, 32, 49]⟩ : Shape).Idx → EReal) (M : (⟨3, ![64, 49, 49]⟩ : Shape).Idx → EReal)
    (B : (⟨3, ![8, 49, 49]⟩ : Shape).Idx → EReal) : (⟨4, ![2048, 8, 49, 49]⟩ : Shape).Idx → EReal :=
  fun i => attnAt Q K M B (i 0) (i 1) (i 2) (i 3)

/-- The head outputs at batch entry `b`, head `h`, channel `c`, position `t`. -/
def scoreAt (Q K : (⟨4, ![2048, 8, 32, 49]⟩ : Shape).Idx → EReal) (M : (⟨3, ![64, 49, 49]⟩ : Shape).Idx → EReal)
    (B : (⟨3, ![8, 49, 49]⟩ : Shape).Idx → EReal) (b : Fin 2048) (h : Fin 8) (c : Fin 32) (t : Fin 49) : EReal :=
  score (fun c' s' => K (ix4 b h c' s')) (fun t' s' => attnAt Q K M B b h t' s') c t

/-- The output array [2048, 8, 32, 49] (before it is re-laid as [2048, 256, 7, 7]). -/
def scoreArr (Q K : (⟨4, ![2048, 8, 32, 49]⟩ : Shape).Idx → EReal) (M : (⟨3, ![64, 49, 49]⟩ : Shape).Idx → EReal)
    (B : (⟨3, ![8, 49, 49]⟩ : Shape).Idx → EReal) : (⟨4, ![2048, 8, 32, 49]⟩ : Shape).Idx → EReal :=
  fun i => scoreAt Q K M B (i 0) (i 1) (i 2) (i 3)

theorem attnArr_ix4 (Q K : (⟨4, ![2048, 8, 32, 49]⟩ : Shape).Idx → EReal) (M : (⟨3, ![64, 49, 49]⟩ : Shape).Idx → EReal)
    (B : (⟨3, ![8, 49, 49]⟩ : Shape).Idx → EReal) (b : Fin 2048) (h : Fin 8) (t s : Fin 49) :
    attnArr Q K M B (ix4 b h t s) = attnAt Q K M B b h t s := rfl

theorem scoreArr_ix4 (Q K : (⟨4, ![2048, 8, 32, 49]⟩ : Shape).Idx → EReal) (M : (⟨3, ![64, 49, 49]⟩ : Shape).Idx → EReal)
    (B : (⟨3, ![8, 49, 49]⟩ : Shape).Idx → EReal) (b : Fin 2048) (h : Fin 8) (c : Fin 32) (t : Fin 49) :
    scoreArr Q K M B (ix4 b h c t) = scoreAt Q K M B b h c t := rfl

end Cert.WindowHead

end
-- ==== Proof.BlockHead.lean ====
/-
  What one grid point of the kernel computes, entry by entry of its block.

  A grid point holds 16 batch entries: a query block and a key block [16, 8, 32, 49], a mask block [16, 49, 49] and the
  whole bias [8, 49, 49]. The body views the 16 x 8 (entry, head) pairs as 128 slabs, multiplies each query slab with
  its key slab over the 32 channels, scales, adds the bias and the mask, takes the softmax along the last axis and
  multiplies the key slab with the weights over the 49 positions. Read at entry b, head h this is
  `Cert.WindowHead.attn` and `Cert.WindowHead.score` of that entry's slabs (`attn_block`, `score_block`): the
  re-layings [16, 8, ...] <-> [128, ...] keep the row-major position, so slab b * 8 + h is entry (b, h); a change of
  float format is the identity on the extended reals; a row maximum is a fold of max and a row sum a sum over the 49
  positions of the row.
-/
import proofs.«151222_j25718264168552_1_alg».proof.Proof.Gen.KernelIdeal.Skeleton
import proofs.«151222_j25718264168552_1_alg».proof.Proof.WindowHead
import Idealize.ShloMosaic.Lib.Pipeline.Value
import Idealize.ShloMosaic.Lib.ValueIdx
import Idealize.ShloMosaic.PureOps.Ideal.Laws
import Idealize.ShloMosaic.PureOps.Reduce

noncomputable section

namespace Cert.KernelIdeal.BlockHead

open Cert.KernelIdeal Cert.KernelIdeal.Gen Idealize.ShloMosaic Idealize.ShloMosaic.ValueIdx Cert.WindowHead

/-! ## The body's values, one name per stage -/

/-- A [16, 8, 32, 49] block viewed as 128 slabs [32, 49], one per (batch entry, head) of the block. -/
def slabs (x : Vec Ideal S16x8x32x49 .f32) : FVec Ideal S128x32x49 .bf16 :=
  shapeCast S128x32x49 (truncf .bf16 (shapeCast S16x8x32x49 x shapeCasts_S16x8x32x49_S16x8x32x49) bitsLt_bf16_f32) shapeCasts_S16x8x32x49_S128x32x49

/-- The block's logits [16, 8, 49, 49]: query-key products scaled, plus the bias block broadcast over the batch
    axis, plus the mask block broadcast over the head axis. -/
def logits (x0 x1 : Vec Ideal S16x8x32x49 .f32) (x3 : Vec Ideal S8x49x49 .f32) (x2 : Vec Ideal S16x49x49 .f32) : FVec Ideal S16x8x49x49 .f32 :=
  addf (addf (mulf (shapeCast S16x8x49x49 (matmul dot_S128x32x49_S128x32x49_S128x49x49_1_1_2_2_0_0 none (slabs x0) (slabs x1) (constant S128x49x49 .f32 0x00000000#32)) shapeCasts_S128x49x49_S16x8x49x49)
      (broadcast S16x8x49x49 (Scalar.ofBits .f32 0x3E3504F3#32)))
    (broadcastTo S16x8x49x49 (shapeCast S1x8x49x49 (shapeCast S8x49x49 x3 shapeCasts_S8x49x49_S8x49x49) shapeCasts_S8x49x49_S1x8x49x49) broadcasts_S1x8x49x49_S16x8x49x49))
    (broadcastTo S16x8x49x49 (shapeCast S16x1x49x49 x2 shapeCasts_S16x49x49_S16x1x49x49) broadcasts_S16x1x49x49_S16x8x49x49)

/-- Each row's maximum [16, 8, 49]. -/
def rowMaxes (L : FVec Ideal S16x8x49x49 .f32) : FVec Ideal S16x8x49 .f32 :=
  maximumf (broadcast S16x8x49 (Scalar.ofBits .f32 0xFF800000#32))
    (multiReduction .maximumf [3] S16x8x49 L 0xFF800000#32 reduces_S16x8x49x49_S16x8x49 (.inl rfl) rfl)

/-- A [16, 8, 49] vector of row values spread along the rows of [16, 8, 49, 49]. -/
def alongRows (v : FVec Ideal S16x8x49 .f32) : FVec Ideal S16x8x49x49 .f32 :=
  broadcastTo S16x8x49x49 (shapeCast S16x8x49x1 v shapeCasts_S16x8x49_S16x8x49x1) broadcasts_S16x8x49x1_S16x8x49x49

/-- The shifted exponentials. -/
def expos (L : FVec Ideal S16x8x49x49 .f32) : FVec Ideal S16x8x49x49 .f32 := exp (subf L (alongRows (rowMaxes L)))

/-- Each row's sum of them. -/
def rowSums (E : FVec Ideal S16x8x49x49 .f32) : FVec Ideal S16x8x49 .f32 :=
  multiReduction .add [3] S16x8x49 E 0x00000000#32 reduces_S16x8x49x49_S16x8x49 (.inl rfl) rfl

/-- The block's softmax. -/
def softmaxBlock (L : FVec Ideal S16x8x49x49 .f32) : FVec Ideal S16x8x49x49 .f32 := divf (expos L) (alongRows (rowSums (expos L)))

/-- The attention payload is the softmax of the logits. -/
theorem pay3_eq (x0 x1 : Vec Ideal S16x8x32x49 .f32) (x3 : Vec Ideal S8x49x49 .f32) (x2 : Vec Ideal S16x49x49 .f32) :
    k0_pay3 (F := Ideal) x0 x1 x3 x2 = softmaxBlock (logits x0 x1 x3 x2) := rfl

/-- The output payload: the key slabs times the attention weights' slabs, viewed back as [16, 8, 32, 49]. -/
theorem pay1_eq (x0 x1 : Vec Ideal S16x8x32x49 .f32) (x3 : Vec Ideal S8x49x49 .f32) (x2 : Vec Ideal S16x49x49 .f32) :
    k0_pay1 (F := Ideal) (k0_pay2 x1) (k0_pay4 x0 x1 x3 x2)
      = shapeCast S16x8x32x49 (matmul dot_S128x32x49_S128x49x49_S128x32x49_2_2_1_1_0_0 none (slabs x1)
          (truncf .bf16 (shapeCast S128x49x49 (softmaxBlock (logits x0 x1 x3 x2)) shapeCasts_S16x8x49x49_S128x49x49) bitsLt_bf16_f32)
          (constant S128x32x49 .f32 0x00000000#32)) shapeCasts_S128x32x49_S16x8x32x49 := rfl

/-! ## The two products read at an index

Both are batched over the 128 slabs. The first contracts the 32 channels of a query slab against a key slab; the
second contracts the 49 positions of a key slab against a row of attention weights. -/

theorem qk_lhs0 (i : S128x49x49.Idx) (q : dot_S128x32x49_S128x32x49_S128x49x49_1_1_2_2_0_0.contr.Idx) :
    (dot_S128x32x49_S128x32x49_S128x49x49_1_1_2_2_0_0.lhsIdx i q 0).val = (i 0).val := by
  unfold DotDims.lhsIdx
  rw [dif_pos (show (0 : Fin S128x32x49.rank) ∈ dot_S128x32x49_S128x32x49_S128x49x49_1_1_2_2_0_0.lhsBatch by decide)]
  rfl
theorem qk_lhs1 (i : S128x49x49.Idx) (q : dot_S128x32x49_S128x32x49_S128x49x49_1_1_2_2_0_0.contr.Idx) :
    (dot_S128x32x49_S128x32x49_S128x49x49_1_1_2_2_0_0.lhsIdx i q 1).val = (q ⟨0, by decide⟩).val :=
  dot_S128x32x49_S128x32x49_S128x49x49_1_1_2_2_0_0.lhsIdx_val_of_single rfl i q
theorem qk_lhs2 (i : S128x49x49.Idx) (q : dot_S128x32x49_S128x32x49_S128x49x49_1_1_2_2_0_0.contr.Idx) :
    (dot_S128x32x49_S128x32x49_S128x49x49_1_1_2_2_0_0.lhsIdx i q 2).val = (i 1).val := by
  unfold DotDims.lhsIdx
  rw [dif_neg (show ¬(2 : Fin S128x32x49.rank) ∈ dot_S128x32x49_S128x32x49_S128x49x49_1_1_2_2_0_0.lhsBatch by decide), dif_pos (show (2 : Fin S128x32x49.rank) ∈ dot_S128x32x49_S128x32x49_S128x49x49_1_1_2_2_0_0.lhsNonContracting by decide)]
  rfl
theorem qk_rhs0 (i : S128x49x49.Idx) (q : dot_S128x32x49_S128x32x49_S128x49x49_1_1_2_2_0_0.contr.Idx) :
    (dot_S128x32x49_S128x32x49_S128x49x49_1_1_2_2_0_0.rhsIdx i q 0).val = (i 0).val := by
  unfold DotDims.rhsIdx
  rw [dif_pos (show (0 : Fin S128x32x49.rank) ∈ dot_S128x32x49_S128x32x49_S128x49x49_1_1_2_2_0_0.rhsBatch by decide)]
  rfl
theorem qk_rhs1 (i : S128x49x49.Idx) (q : dot_S128x32x49_S128x32x49_S128x49x49_1_1_2_2_0_0.contr.Idx) :
    (dot_S128x32x49_S128x32x49_S128x49x49_1_1_2_2_0_0.rhsIdx i q 1).val = (q ⟨0, by decide⟩).val :=
  dot_S128x32x49_S128x32x49_S128x49x49_1_1_2_2_0_0.rhsIdx_val_of_single rfl i q
theorem qk_rhs2 (i : S128x49x49.Idx) (q : dot_S128x32x49_S128x32x49_S128x49x49_1_1_2_2_0_0.contr.Idx) :
    (dot_S128x32x49_S128x32x49_S128x49x49_1_1_2_2_0_0.rhsIdx i q 2).val = (i 2).val := by
  unfold DotDims.rhsIdx
  rw [dif_neg (show ¬(2 : Fin S128x32x49.rank) ∈ dot_S128x32x49_S128x32x49_S128x49x49_1_1_2_2_0_0.rhsBatch by decide), dif_pos (show (2 : Fin S128x32x49.rank) ∈ dot_S128x32x49_S128x32x49_S128x49x49_1_1_2_2_0_0.rhsNonContracting by decide)]
  rfl

/-- Slab `n`'s query-key product at positions `t`, `s`: the sum over the 32 channels. -/
theorem qk_apply (l r : FVec Ideal S128x32x49 .bf16) (n : Fin 128) (t s : Fin 49) :
    matmul dot_S128x32x49_S128x32x49_S128x49x49_1_1_2_2_0_0 none l r (constant S128x49x49 .f32 0x00000000#32) (ix3 n t s)
      = ∑ c : Fin 32, l (ix3 n c t) * r (ix3 n c s) := by
  simp only [matmul]
  rw [Ideal.matmul_constant_zero_apply, ← Equiv.sum_comp (contrEquiv1 dot_S128x32x49_S128x32x49_S128x49x49_1_1_2_2_0_0 32 rfl rfl).symm]
  refine Finset.sum_congr rfl fun c _ => ?_
  have hk := contrEquiv1_symm_val dot_S128x32x49_S128x32x49_S128x49x49_1_1_2_2_0_0 32 rfl rfl c
  have el : dot_S128x32x49_S128x32x49_S128x49x49_1_1_2_2_0_0.lhsIdx (ix3 n t s) ((contrEquiv1 dot_S128x32x49_S128x32x49_S128x49x49_1_1_2_2_0_0 32 rfl rfl).symm c) = ix3 n c t := funext fun a => Fin.ext (by
    match a with
    | ⟨0, _⟩ => exact qk_lhs0 _ _
    | ⟨1, _⟩ => exact (qk_lhs1 _ _).trans hk
    | ⟨2, _⟩ => exact qk_lhs2 _ _)
  have er : dot_S128x32x49_S128x32x49_S128x49x49_1_1_2_2_0_0.rhsIdx (ix3 n t s) ((contrEquiv1 dot_S128x32x49_S128x32x49_S128x49x49_1_1_2_2_0_0 32 rfl rfl).symm c) = ix3 n c s := funext fun a => Fin.ext (by
    match a with
    | ⟨0, _⟩ => exact qk_rhs0 _ _
    | ⟨1, _⟩ => exact (qk_rhs1 _ _).trans hk
    | ⟨2, _⟩ => exact qk_rhs2 _ _)
  rw [el, er]

theorem av_lhs0 (i : S128x32x49.Idx) (q : dot_S128x32x49_S128x49x49_S128x32x49_2_2_1_1_0_0.contr.Idx) :
    (dot_S128x32x49_S128x49x49_S128x32x49_2_2_1_1_0_0.lhsIdx i q 0).val = (i 0).val := by
  unfold DotDims.lhsIdx
  rw [dif_pos (show (0 : Fin S128x32x49.rank) ∈ dot_S128x32x49_S128x49x49_S128x32x49_2_2_1_1_0_0.lhsBatch by decide)]
  rfl
theorem av_lhs1 (i : S128x32x49.Idx) (q : dot_S128x32x49_S128x49x49_S128x32x49_2_2_1_1_0_0.contr.Idx) :
    (dot_S128x32x49_S128x49x49_S128x32x49_2_2_1_1_0_0.lhsIdx i q 1).val = (i 1).val := by
  unfold DotDims.lhsIdx
  rw [dif_neg (show ¬(1 : Fin S128x32x49.rank) ∈ dot_S128x32x49_S128x49x49_S128x32x49_2_2_1_1_0_0.lhsBatch by decide), dif_pos (show (1 : Fin S128x32x49.rank) ∈ dot_S128x32x49_S128x49x49_S128x32x49_2_2_1_1_0_0.lhsNonContracting by decide)]
  rfl
theorem av_lhs2 (i : S128x32x49.Idx) (q : dot_S128x32x49_S128x49x49_S128x32x49_2_2_1_1_0_0.contr.Idx) :
    (dot_S128x32x49_S128x49x49_S128x32x49_2_2_1_1_0_0.lhsIdx i q 2).val = (q ⟨0, by decide⟩).val :=
  dot_S128x32x49_S128x49x49_S128x32x49_2_2_1_1_0_0.lhsIdx_val_of_single rfl i q
theorem av_rhs0 (i : S128x32x49.Idx) (q : dot_S128x32x49_S128x49x49_S128x32x49_2_2_1_1_0_0.contr.Idx) :
    (dot_S128x32x49_S128x49x49_S128x32x49_2_2_1_1_0_0.rhsIdx i q 0).val = (i 0).val := by
  unfold DotDims.rhsIdx
  rw [dif_pos (show (0 : Fin S128x49x49.rank) ∈ dot_S128x32x49_S128x49x49_S128x32x49_2_2_1_1_0_0.rhsBatch by decide)]
  rfl
theorem av_rhs1 (i : S128x32x49.Idx) (q : dot_S128x32x49_S128x49x49_S128x32x49_2_2_1_1_0_0.contr.Idx) :
    (dot_S128x32x49_S128x49x49_S128x32x49_2_2_1_1_0_0.rhsIdx i q 1).val = (i 2).val := by
  unfold DotDims.rhsIdx
  rw [dif_neg (show ¬(1 : Fin S128x49x49.rank) ∈ dot_S128x32x49_S128x49x49_S128x32x49_2_2_1_1_0_0.rhsBatch by decide), dif_pos (show (1 : Fin S128x49x49.rank) ∈ dot_S128x32x49_S128x49x49_S128x32x49_2_2_1_1_0_0.rhsNonContracting by decide)]
  rfl
theorem av_rhs2 (i : S128x32x49.Idx) (q : dot_S128x32x49_S128x49x49_S128x32x49_2_2_1_1_0_0.contr.Idx) :
    (dot_S128x32x49_S128x49x49_S128x32x49_2_2_1_1_0_0.rhsIdx i q 2).val = (q ⟨0, by decide⟩).val :=
  dot_S128x32x49_S128x49x49_S128x32x49_2_2_1_1_0_0.rhsIdx_val_of_single rfl i q

/-- Slab `n`'s output at channel `c`, position `t`: the sum over the 49 positions `s` of key times weight. -/
theorem av_apply (l : FVec Ideal S128x32x49 .bf16) (r : FVec Ideal S128x49x49 .bf16) (n : Fin 128) (c : Fin 32) (t : Fin 49) :
    matmul dot_S128x32x49_S128x49x49_S128x32x49_2_2_1_1_0_0 none l r (constant S128x32x49 .f32 0x00000000#32) (ix3 n c t)
      = ∑ s : Fin 49, l (ix3 n c s) * r (ix3 n t s) := by
  simp only [matmul]
  rw [Ideal.matmul_constant_zero_apply, ← Equiv.sum_comp (contrEquiv1 dot_S128x32x49_S128x49x49_S128x32x49_2_2_1_1_0_0 49 rfl rfl).symm]
  refine Finset.sum_congr rfl fun s _ => ?_
  have hk := contrEquiv1_symm_val dot_S128x32x49_S128x49x49_S128x32x49_2_2_1_1_0_0 49 rfl rfl s
  have el : dot_S128x32x49_S128x49x49_S128x32x49_2_2_1_1_0_0.lhsIdx (ix3 n c t) ((contrEquiv1 dot_S128x32x49_S128x49x49_S128x32x49_2_2_1_1_0_0 49 rfl rfl).symm s) = ix3 n c s := funext fun a => Fin.ext (by
    match a with
    | ⟨0, _⟩ => exact av_lhs0 _ _
    | ⟨1, _⟩ => exact av_lhs1 _ _
    | ⟨2, _⟩ => exact (av_lhs2 _ _).trans hk)
  have er : dot_S128x32x49_S128x49x49_S128x32x49_2_2_1_1_0_0.rhsIdx (ix3 n c t) ((contrEquiv1 dot_S128x32x49_S128x49x49_S128x32x49_2_2_1_1_0_0 49 rfl rfl).symm s) = ix3 n t s := funext fun a => Fin.ext (by
    match a with
    | ⟨0, _⟩ => exact av_rhs0 _ _
    | ⟨1, _⟩ => exact av_rhs1 _ _
    | ⟨2, _⟩ => exact (av_rhs2 _ _).trans hk)
  rw [el, er]

/-! ## The layout steps read at an index -/

/-- Slab `b * 8 + h` of a block is batch entry `b`, head `h` of it. -/
theorem slabs_apply (x : Vec Ideal S16x8x32x49 .f32) (b : Fin 16) (h : Fin 8) (c : Fin 32) (t : Fin 49) (n : Fin 128)
    (hn : n.val = b.val * 8 + h.val) : slabs x (ix3 n c t) = x (ix4 b h c t) := by
  unfold slabs
  refine (shapeCast_apply _ shapeCasts_S16x8x32x49_S128x32x49 (ix3 n c t) (ix4 b h c t) ?_).trans ?_
  · rw [Shape.rowMajor_val_four, Shape.rowMajor_val_three]
    show ((b.val * 8 + h.val) * 32 + c.val) * 49 + t.val = (n.val * 32 + c.val) * 49 + t.val
    rw [hn]
  · show shapeCast S16x8x32x49 x shapeCasts_S16x8x32x49_S16x8x32x49 (ix4 b h c t) = _
    rw [shapeCast_self]

/-- The 128 slabs [49, 49] viewed as [16, 8, 49, 49]: entry (b, h) is slab `b * 8 + h`. -/
theorem unslab_apply (v : FVec Ideal S128x49x49 .f32) (b : Fin 16) (h : Fin 8) (t s : Fin 49) (n : Fin 128)
    (hn : n.val = b.val * 8 + h.val) :
    shapeCast S16x8x49x49 v shapeCasts_S128x49x49_S16x8x49x49 (ix4 b h t s) = v (ix3 n t s) := by
  refine shapeCast_apply _ shapeCasts_S128x49x49_S16x8x49x49 (ix4 b h t s) (ix3 n t s) ?_
  rw [Shape.rowMajor_val_four, Shape.rowMajor_val_three]
  show (n.val * 49 + t.val) * 49 + s.val = ((b.val * 8 + h.val) * 49 + t.val) * 49 + s.val
  rw [hn]

/-- The bias block [8, 49, 49] spread over the 16 batch entries. -/
theorem biasSpread_apply (x3 : Vec Ideal S8x49x49 .f32) (b : Fin 16) (h : Fin 8) (t s : Fin 49) :
    broadcastTo S16x8x49x49 (shapeCast S1x8x49x49 (shapeCast S8x49x49 x3 shapeCasts_S8x49x49_S8x49x49) shapeCasts_S8x49x49_S1x8x49x49)
      broadcasts_S1x8x49x49_S16x8x49x49 (ix4 b h t s) = x3 (ix3 h t s) := by
  refine (broadcastTo_apply _ broadcasts_S1x8x49x49_S16x8x49x49 (ix4 b h t s) (ix4 (0 : Fin 1) h t s) (fun a => match a with
    | ⟨0, _⟩ => by show 0 = if (1 : Nat) = 1 then 0 else b.val; rw [if_pos rfl]
    | ⟨1, _⟩ => by show h.val = if (8 : Nat) = 1 then 0 else h.val; rw [if_neg (by decide)]
    | ⟨2, _⟩ => by show t.val = if (49 : Nat) = 1 then 0 else t.val; rw [if_neg (by decide)]
    | ⟨3, _⟩ => by show s.val = if (49 : Nat) = 1 then 0 else s.val; rw [if_neg (by decide)])).trans ?_
  refine (shapeCast_apply _ shapeCasts_S8x49x49_S1x8x49x49 (ix4 (0 : Fin 1) h t s) (ix3 h t s) ?_).trans ?_
  · rw [Shape.rowMajor_val_three, Shape.rowMajor_val_four]
    show (h.val * 49 + t.val) * 49 + s.val = (((0 : Fin 1).val * 8 + h.val) * 49 + t.val) * 49 + s.val
    simp
  · rw [shapeCast_self]

/-- The mask block [16, 49, 49] spread over the 8 heads. -/
theorem maskSpread_apply (x2 : Vec Ideal S16x49x49 .f32) (b : Fin 16) (h : Fin 8) (t s : Fin 49) :
    broadcastTo S16x8x49x49 (shapeCast S16x1x49x49 x2 shapeCasts_S16x49x49_S16x1x49x49) broadcasts_S16x1x49x49_S16x8x49x49 (ix4 b h t s)
      = x2 (ix3 b t s) := by
  refine (broadcastTo_apply _ broadcasts_S16x1x49x49_S16x8x49x49 (ix4 b h t s) (ix4 b (0 : Fin 1) t s) (fun a => match a with
    | ⟨0, _⟩ => by show b.val = if (16 : Nat) = 1 then 0 else b.val; rw [if_neg (by decide)]
    | ⟨1, _⟩ => by show 0 = if (1 : Nat) = 1 then 0 else h.val; rw [if_pos rfl]
    | ⟨2, _⟩ => by show t.val = if (49 : Nat) = 1 then 0 else t.val; rw [if_neg (by decide)]
    | ⟨3, _⟩ => by show s.val = if (49 : Nat) = 1 then 0 else s.val; rw [if_neg (by decide)])).trans ?_
  refine shapeCast_apply _ shapeCasts_S16x49x49_S16x1x49x49 (ix4 b (0 : Fin 1) t s) (ix3 b t s) ?_
  rw [Shape.rowMajor_val_three, Shape.rowMajor_val_four]
  show (b.val * 49 + t.val) * 49 + s.val = ((b.val * 1 + (0 : Fin 1).val) * 49 + t.val) * 49 + s.val
  simp

/-- A row value spread along its row. -/
theorem alongRows_apply (v : FVec Ideal S16x8x49 .f32) (b : Fin 16) (h : Fin 8) (t s : Fin 49) :
    alongRows v (ix4 b h t s) = v (ix3 b h t) := by
  unfold alongRows
  refine (broadcastTo_apply _ broadcasts_S16x8x49x1_S16x8x49x49 (ix4 b h t s) (ix4 b h t (0 : Fin 1)) (fun a => match a with
    | ⟨0, _⟩ => by show b.val = if (16 : Nat) = 1 then 0 else b.val; rw [if_neg (by decide)]
    | ⟨1, _⟩ => by show h.val = if (8 : Nat) = 1 then 0 else h.val; rw [if_neg (by decide)]
    | ⟨2, _⟩ => by show t.val = if (49 : Nat) = 1 then 0 else t.val; rw [if_neg (by decide)]
    | ⟨3, _⟩ => by show 0 = if (1 : Nat) = 1 then 0 else s.val; rw [if_pos rfl])).trans ?_
  refine shapeCast_apply _ shapeCasts_S16x8x49_S16x8x49x1 (ix4 b h t (0 : Fin 1)) (ix3 b h t) ?_
  rw [Shape.rowMajor_val_three, Shape.rowMajor_val_four]
  show (b.val * 8 + h.val) * 49 + t.val = ((b.val * 8 + h.val) * 49 + t.val) * 1 + (0 : Fin 1).val
  simp

/-! ## The arithmetic read at an index -/

/-- The block's logits at batch entry `b`, head `h`: the head's logits of that entry's slabs. -/
theorem logits_apply (x0 x1 : Vec Ideal S16x8x32x49 .f32) (x3 : Vec Ideal S8x49x49 .f32) (x2 : Vec Ideal S16x49x49 .f32)
    (b : Fin 16) (h : Fin 8) (t s : Fin 49) :
    logits x0 x1 x3 x2 (ix4 b h t s)
      = logit (fun c t' => x0 (ix4 b h c t')) (fun c s' => x1 (ix4 b h c s')) (fun t' s' => x3 (ix3 h t' s'))
          (fun t' s' => x2 (ix3 b t' s')) t s := by
  have hn : (⟨b.val * 8 + h.val, by omega⟩ : Fin 128).val = b.val * 8 + h.val := rfl
  unfold logits logit
  simp only [addf_apply, mulf_apply, broadcast_apply]
  rw [biasSpread_apply, maskSpread_apply, unslab_apply _ b h t s _ hn, qk_apply]
  refine congrArg (· + x2 (ix3 b t s)) (congrArg (· + x3 (ix3 h t s)) (congrArg (· * _) ?_))
  refine Finset.sum_congr rfl fun c _ => ?_
  rw [slabs_apply x0 b h c t _ hn, slabs_apply x1 b h c s _ hn]

/-- A row's maximum. -/
theorem rowMaxes_apply (L : FVec Ideal S16x8x49x49 .f32) (b : Fin 16) (h : Fin 8) (t : Fin 49) :
    rowMaxes L (ix3 b h t) = rowMax (fun s' => L (ix4 b h t s')) := by
  unfold rowMaxes rowMax
  rw [maximumf_apply]
  refine congrArg (max _) ?_
  refine (Ideal.multiReduction_maximumf_single L 0xFF800000#32 reduces_S16x8x49x49_S16x8x49 (.inl rfl) rfl (ix3 b h t)).trans ?_
  refine congrArg (Finset.univ.fold max _) ?_
  funext k
  exact congrArg L (funext fun a => Fin.ext (by match a with | ⟨0, _⟩ => rfl | ⟨1, _⟩ => rfl | ⟨2, _⟩ => rfl | ⟨3, _⟩ => rfl))

/-- A row's sum. -/
theorem rowSums_apply (E : FVec Ideal S16x8x49x49 .f32) (b : Fin 16) (h : Fin 8) (t : Fin 49) :
    rowSums E (ix3 b h t) = ∑ s' : Fin 49, E (ix4 b h t s') := by
  unfold rowSums
  refine (Ideal.multiReduction_add_single E 0x00000000#32 reduces_S16x8x49x49_S16x8x49 (.inl rfl) rfl (ix3 b h t)).trans ?_
  refine Finset.sum_congr rfl fun k _ => ?_
  exact congrArg E (funext fun a => Fin.ext (by match a with | ⟨0, _⟩ => rfl | ⟨1, _⟩ => rfl | ⟨2, _⟩ => rfl | ⟨3, _⟩ => rfl))

/-- A shifted exponential. -/
theorem expos_apply (L : FVec Ideal S16x8x49x49 .f32) (b : Fin 16) (h : Fin 8) (t s : Fin 49) :
    expos L (ix4 b h t s) = Ideal.exp (L (ix4 b h t s) - rowMax (fun s' => L (ix4 b h t s'))) := by
  unfold expos
  show Ideal.exp (L (ix4 b h t s) - alongRows (rowMaxes L) (ix4 b h t s)) = _
  rw [alongRows_apply, rowMaxes_apply]

/-- The block's softmax at batch entry `b`, head `h` is the softmax of that entry's rows. -/
theorem softmaxBlock_apply (L : FVec Ideal S16x8x49x49 .f32) (b : Fin 16) (h : Fin 8) (t s : Fin 49) :
    softmaxBlock L (ix4 b h t s) = softmax (fun t' s' => L (ix4 b h t' s')) t s := by
  unfold softmaxBlock softmax
  rw [divf_apply, alongRows_apply, rowSums_apply, expos_apply]
  refine congrArg (Ideal.div _) (Finset.sum_congr rfl fun s' _ => ?_)
  rw [expos_apply]

/-! ## The two payloads at an index of the block -/

/-- THE ATTENTION PAYLOAD at entry `b`, head `h` of the block: that head's attention weights, from the entry's query
    and key slabs, the head's bias and the entry's mask. -/
theorem attn_block (x0 x1 : Vec Ideal S16x8x32x49 .f32) (x3 : Vec Ideal S8x49x49 .f32) (x2 : Vec Ideal S16x49x49 .f32)
    (b : Fin 16) (h : Fin 8) (t s : Fin 49) :
    k0_pay3 (F := Ideal) x0 x1 x3 x2 (ix4 b h t s)
      = attn (fun c t' => x0 (ix4 b h c t')) (fun c s' => x1 (ix4 b h c s')) (fun t' s' => x3 (ix3 h t' s'))
          (fun t' s' => x2 (ix3 b t' s')) t s := by
  rw [pay3_eq, softmaxBlock_apply]
  unfold attn
  exact congrArg (fun L => softmax L t s) (funext fun t' => funext fun s' => logits_apply x0 x1 x3 x2 b h t' s')

/-- THE OUTPUT PAYLOAD at entry `b`, head `h`, channel `c`, position `t`: the keys averaged with that head's weights. -/
theorem score_block (x0 x1 : Vec Ideal S16x8x32x49 .f32) (x3 : Vec Ideal S8x49x49 .f32) (x2 : Vec Ideal S16x49x49 .f32)
    (b : Fin 16) (h : Fin 8) (c : Fin 32) (t : Fin 49) :
    k0_pay1 (F := Ideal) (k0_pay2 x1) (k0_pay4 x0 x1 x3 x2) (ix4 b h c t)
      = score (fun c' s' => x1 (ix4 b h c' s'))
          (attn (fun c' t' => x0 (ix4 b h c' t')) (fun c' s' => x1 (ix4 b h c' s')) (fun t' s' => x3 (ix3 h t' s'))
            (fun t' s' => x2 (ix3 b t' s'))) c t := by
  have hn : (⟨b.val * 8 + h.val, by omega⟩ : Fin 128).val = b.val * 8 + h.val := rfl
  rw [pay1_eq]
  refine (shapeCast_apply _ shapeCasts_S128x32x49_S16x8x32x49 (ix4 b h c t) (ix3 ⟨b.val * 8 + h.val, by omega⟩ c t) ?_).trans ?_
  · rw [Shape.rowMajor_val_three, Shape.rowMajor_val_four]; rfl
  · rw [av_apply]
    unfold score
    refine Finset.sum_congr rfl fun s _ => ?_
    rw [slabs_apply x1 b h c s _ hn]
    refine congrArg (x1 (ix4 b h c s) * ·) ?_
    show shapeCast S128x49x49 (softmaxBlock (logits x0 x1 x3 x2)) shapeCasts_S16x8x49x49_S128x49x49 (ix3 ⟨b.val * 8 + h.val, by omega⟩ t s) = _
    refine (shapeCast_apply _ shapeCasts_S16x8x49x49_S128x49x49 (ix3 ⟨b.val * 8 + h.val, by omega⟩ t s) (ix4 b h t s) ?_).trans ?_
    · rw [Shape.rowMajor_val_three, Shape.rowMajor_val_four]; rfl
    · rw [← pay3_eq, attn_block]

end Cert.KernelIdeal.BlockHead

end
-- ==== Proof.ArrayValue.lean ====
/-
  The kernel's two arrays after the run, as whole-array functions.

  The grid has 128 points; point t holds batch entries 16 t .. 16 t + 15: its query, key and output blocks are block t
  of their arrays along the batch axis, its mask block is block t mod 4 of the 64 mask windows (so entry b meets window
  b mod 64), and the bias is one block, the same at every point. With the per-block reading of the body this makes what
  point t writes back block t of `attnG` / `scoreG` — the specification's arrays, of the arrays the region finds —;
  the 128 blocks cover the 2048 batch entries, so the two arrays end at those functions; the one line after the region
  re-lays the output [2048, 8, 32, 49] as [2048, 256, 7, 7].
-/
import proofs.«151222_j25718264168552_1_alg».proof.Proof.Gen.KernelIdeal.Frame
import proofs.«151222_j25718264168552_1_alg».proof.Proof.BlockHead
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.WindowHead Cert.KernelIdeal.BlockHead
open Idealize.ShloMosaic.Pipeline (Dat)

variable (m : (ℓ : Loc nD τ sig) → Buf (Elt Ideal) ℓ) (ρ : Dev nD → PrngReg)

/-! ## Where each window's block sits at a grid point -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the 128 points: the query, key and both output blocks are block `t` along the
    batch axis; the mask block is block `t mod 4`; the bias is its one block. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 3) = t.val % 4 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 4) = t.val ∧ win0_5.index t (1 : Fin 4) = 0 ∧ win0_5.index t (2 : Fin 4) = 0 ∧ win0_5.index t (3 : Fin 4) = 0) :=
  (by decide +kernel : ∀ t : Fin grid0.N, _)

theorem t_lt (t : Fin cfg0.N) : t.val < 128 := lt_of_lt_of_eq t.isLt N_0

/-- Entry `b` of the query block at point `t` is batch entry `16 t + b` of the query array. -/
theorem qblk_apply (c : Dev nD) (t : Fin cfg0.N) (b : Fin 16) (h : Fin 8) (ch : Fin 32) (p : Fin 49) :
    (iblk m c 0 t : Vec Ideal S16x8x32x49 .f32) (ix4 b h ch p)
      = (V m c main_v0 : S2048x8x32x49.Idx → EReal) (ix4 ⟨t.val * 16 + b.val, by have := t_lt t; omega⟩ h ch p) := by
  obtain ⟨⟨e0, e1, e2, e3⟩, -⟩ := idx_facts t
  show V m c main_v0 (((cfg0.win 0).blk t).view.emb (ix4 b h ch p)) = _
  refine congrArg (V m c main_v0) (funext fun a => Fin.ext ?_)
  match a with
  | ⟨0, _⟩ => show win0_0.index t (0 : Fin 4) * 16 + 1 * b.val = t.val * 16 + b.val; omega
  | ⟨1, _⟩ => show win0_0.index t (1 : Fin 4) * 8 + 1 * h.val = h.val; omega
  | ⟨2, _⟩ => show win0_0.index t (2 : Fin 4) * 32 + 1 * ch.val = ch.val; omega
  | ⟨3, _⟩ => show win0_0.index t (3 : Fin 4) * 49 + 1 * p.val = p.val; omega

/-- Entry `b` of the key block at point `t` is batch entry `16 t + b` of the key array. -/
theorem kblk_apply (c : Dev nD) (t : Fin cfg0.N) (b : Fin 16) (h : Fin 8) (ch : Fin 32) (p : Fin 49) :
    (iblk m c 1 t : Vec Ideal S16x8x32x49 .f32) (ix4 b h ch p)
      = (V m c main_v1 : S2048x8x32x49.Idx → EReal) (ix4 ⟨t.val * 16 + b.val, by have := t_lt t; omega⟩ h ch p) := by
  obtain ⟨-, ⟨e0, e1, e2, e3⟩, -⟩ := idx_facts t
  show V m c main_v1 (((cfg0.win 1).blk t).view.emb (ix4 b h ch p)) = _
  refine congrArg (V m c main_v1) (funext fun a => Fin.ext ?_)
  match a with
  | ⟨0, _⟩ => show win0_1.index t (0 : Fin 4) * 16 + 1 * b.val = t.val * 16 + b.val; omega
  | ⟨1, _⟩ => show win0_1.index t (1 : Fin 4) * 8 + 1 * h.val = h.val; omega
  | ⟨2, _⟩ => show win0_1.index t (2 : Fin 4) * 32 + 1 * ch.val = ch.val; omega
  | ⟨3, _⟩ => show win0_1.index t (3 : Fin 4) * 49 + 1 * p.val = p.val; omega

/-- Entry `b` of the mask block at point `t` is window `(16 t + b) mod 64` of the mask: the 128 points walk the 64
    windows four blocks at a time, 32 times over. -/
theorem mblk_apply (c : Dev nD) (t : Fin cfg0.N) (b : Fin 16) (p q : Fin 49) :
    (iblk m c 2 t : Vec Ideal S16x49x49 .f32) (ix3 b p q)
      = (V m c main_arg3 : S64x49x49.Idx → EReal) (ix3 (maskWin ⟨t.val * 16 + b.val, by have := t_lt t; omega⟩) p q) := by
  obtain ⟨-, -, ⟨e0, e1, e2⟩, -⟩ := idx_facts t
  show V m c main_arg3 (((cfg0.win 2).blk t).view.emb (ix3 b p q)) = _
  refine congrArg (V m c main_arg3) (funext fun a => Fin.ext ?_)
  match a with
  | ⟨0, _⟩ => show win0_2.index t (0 : Fin 3) * 16 + 1 * b.val = (t.val * 16 + b.val) % 64; have := t_lt t; omega
  | ⟨1, _⟩ => show win0_2.index t (1 : Fin 3) * 49 + 1 * p.val = p.val; omega
  | ⟨2, _⟩ => show win0_2.index t (2 : Fin 3) * 49 + 1 * q.val = q.val; omega

/-- The bias block at every point is the whole bias. -/
theorem bblk_apply (c : Dev nD) (t : Fin cfg0.N) (h : Fin 8) (p q : Fin 49) :
    (iblk m c 3 t : Vec Ideal S8x49x49 .f32) (ix3 h p q) = (V m c main_v11 : S8x49x49.Idx → EReal) (ix3 h p q) := by
  obtain ⟨-, -, -, ⟨e0, e1, e2⟩, -⟩ := idx_facts t
  show V m c main_v11 (((cfg0.win 3).blk t).view.emb (ix3 h p q)) = _
  refine congrArg (V m c main_v11) (funext fun a => Fin.ext ?_)
  match a with
  | ⟨0, _⟩ => show win0_3.index t (0 : Fin 3) * 8 + 1 * h.val = h.val; omega
  | ⟨1, _⟩ => show win0_3.index t (1 : Fin 3) * 49 + 1 * p.val = p.val; omega
  | ⟨2, _⟩ => show win0_3.index t (2 : Fin 3) * 49 + 1 * q.val = q.val; omega

/-! ## What a grid point writes back -/

/-- The attention array, of the arrays as the region finds them. -/
def attnG (c : Dev nD) : S2048x8x49x49.Idx → EReal :=
  attnArr (V m c main_v0) (V m c main_v1) (V m c main_arg3) (V m c main_v11)

/-- The output array before its last re-laying, of the arrays as the region finds them. -/
def scoreG (c : Dev nD) : S2048x8x32x49.Idx → EReal :=
  scoreArr (V m c main_v0) (V m c main_v1) (V m c main_arg3) (V m c main_v11)

/-- The head's attention of entry `b` of point `t`'s blocks is the attention array's head at batch entry `16 t + b`. -/
theorem attn_slabs (c : Dev nD) (t : Fin cfg0.N) (b : Fin 16) (h : Fin 8) :
    attn (fun ch p' => (iblk m c 0 t : Vec Ideal S16x8x32x49 .f32) (ix4 b h ch p'))
        (fun ch p' => (iblk m c 1 t : Vec Ideal S16x8x32x49 .f32) (ix4 b h ch p'))
        (fun p' q' => (iblk m c 3 t : Vec Ideal S8x49x49 .f32) (ix3 h p' q'))
        (fun p' q' => (iblk m c 2 t : Vec Ideal S16x49x49 .f32) (ix3 b p' q'))
      = fun p q => attnAt (V m c main_v0) (V m c main_v1) (V m c main_arg3) (V m c main_v11) ⟨t.val * 16 + b.val, by have := t_lt t; omega⟩ h p q := by
  unfold attnAt
  have e0 : (fun (ch : Fin 32) (p' : Fin 49) => (iblk m c 0 t : Vec Ideal S16x8x32x49 .f32) (ix4 b h ch p'))
      = fun ch p' => (V m c main_v0 : S2048x8x32x49.Idx → EReal) (ix4 ⟨t.val * 16 + b.val, by have := t_lt t; omega⟩ h ch p') :=
    funext fun ch => funext fun p' => qblk_apply m c t b h ch p'
  have e1 : (fun (ch : Fin 32) (p' : Fin 49) => (iblk m c 1 t : Vec Ideal S16x8x32x49 .f32) (ix4 b h ch p'))
      = fun ch p' => (V m c main_v1 : S2048x8x32x49.Idx → EReal) (ix4 ⟨t.val * 16 + b.val, by have := t_lt t; omega⟩ h ch p') :=
    funext fun ch => funext fun p' => kblk_apply m c t b h ch p'
  have e3 : (fun (p' q' : Fin 49) => (iblk m c 3 t : Vec Ideal S8x49x49 .f32) (ix3 h p' q'))
      = fun p' q' => (V m c main_v11 : S8x49x49.Idx → EReal) (ix3 h p' q') :=
    funext fun p' => funext fun q' => bblk_apply m c t h p' q'
  have e2 : (fun (p' q' : Fin 49) => (iblk m c 2 t : Vec Ideal S16x49x49 .f32) (ix3 b p' q'))
      = fun p' q' => (V m c main_arg3 : S64x49x49.Idx → EReal) (ix3 (maskWin ⟨t.val * 16 + b.val, by have := t_lt t; omega⟩) p' q') :=
    funext fun p' => funext fun q' => mblk_apply m c t b p' q'
  rw [e0, e1, e3, e2]

/-- The attention payload of point `t`'s blocks, at entry `b` of the block, is the attention array at batch entry `16 t + b`. -/
theorem attn_point (c : Dev nD) (t : Fin cfg0.N) (b : Fin 16) (h : Fin 8) (p q : Fin 49) :
    k0_pay3 (F := Ideal) (iblk m c 0 t) (iblk m c 1 t) (iblk m c 3 t) (iblk m c 2 t) (ix4 b h p q)
      = attnAt (V m c main_v0) (V m c main_v1) (V m c main_arg3) (V m c main_v11) ⟨t.val * 16 + b.val, by have := t_lt t; omega⟩ h p q :=
  (attn_block (iblk m c 0 t) (iblk m c 1 t) (iblk m c 3 t) (iblk m c 2 t) b h p q).trans
    (congrFun (congrFun (attn_slabs m c t b h) p) q)

/-- The output payload likewise is the output array at batch entry `16 t + b`. -/
theorem score_point (c : Dev nD) (t : Fin cfg0.N) (b : Fin 16) (h : Fin 8) (ch : Fin 32) (p : Fin 49) :
    k0_pay1 (F := Ideal) (k0_pay2 (iblk m c 1 t)) (k0_pay4 (iblk m c 0 t) (iblk m c 1 t) (iblk m c 3 t) (iblk m c 2 t)) (ix4 b h ch p)
      = scoreAt (V m c main_v0) (V m c main_v1) (V m c main_arg3) (V m c main_v11) ⟨t.val * 16 + b.val, by have := t_lt t; omega⟩ h ch p := by
  refine (score_block (iblk m c 0 t) (iblk m c 1 t) (iblk m c 3 t) (iblk m c 2 t) b h ch p).trans ?_
  unfold scoreAt
  rw [attn_slabs m c t b h]
  have e1 : (fun (ch : Fin 32) (p' : Fin 49) => (iblk m c 1 t : Vec Ideal S16x8x32x49 .f32) (ix4 b h ch p'))
      = fun ch p' => (V m c main_v1 : S2048x8x32x49.Idx → EReal) (ix4 ⟨t.val * 16 + b.val, by have := t_lt t; omega⟩ h ch p') :=
    funext fun ch => funext fun p' => kblk_apply m c t b h ch p'
  rw [e1]

/-- WHAT POINT `t` WRITES BACK to the attention array is block `t` of `attnG`. -/
theorem flushed5_eq (c : Dev nD) (t : Fin cfg0.N) :
    (dats m 0 c).flushed 5 t = ((cfg0.win 5).blk t).view.read (Elt Ideal) (attnG m c) := by
  show (cfg0.win 5).cut (grid0.coords t) ((dats m 0 c).after 5 t) = _
  rw [after0_5]
  unfold out0_5
  rw [View.canon_unit_zero hz4]
  simp only [View.ld_unit_zero (S := S16x8x32x49) hz4, View.ld_unit_zero (S := S8x49x49) hz3, View.ld_unit_zero (S := S16x49x49) hz3]
  obtain ⟨-, -, -, -, -, ⟨e0, e1, e2, e3⟩⟩ := idx_facts t
  funext y
  obtain ⟨b, h, p, q, rfl⟩ : ∃ (b : Fin 16) (h : Fin 8) (p q : Fin 49), y = ix4 b h p q := ⟨y 0, y 1, y 2, y 3, eq_ix4 y⟩
  show k0_pay3 (F := Ideal) (iblk m c 0 t) (iblk m c 1 t) (iblk m c 3 t) (iblk m c 2 t) (ix4 b h p q)
    = attnG m c (((cfg0.win 5).blk t).view.emb (ix4 b h p q))
  rw [attn_point]
  unfold attnG
  refine (attnArr_ix4 _ _ _ _ _ h p q).symm.trans (congrArg (attnArr _ _ _ _) (funext fun a => Fin.ext ?_))
  match a with
  | ⟨0, _⟩ => show t.val * 16 + b.val = win0_5.index t (0 : Fin 4) * 16 + 1 * b.val; omega
  | ⟨1, _⟩ => show h.val = win0_5.index t (1 : Fin 4) * 8 + 1 * h.val; omega
  | ⟨2, _⟩ => show p.val = win0_5.index t (2 : Fin 4) * 49 + 1 * p.val; omega
  | ⟨3, _⟩ => show q.val = win0_5.index t (3 : Fin 4) * 49 + 1 * q.val; omega

/-- WHAT POINT `t` WRITES BACK to the output array is block `t` of `scoreG`. -/
theorem flushed4_eq (c : Dev nD) (t : Fin cfg0.N) :
    (dats m 0 c).flushed 4 t = ((cfg0.win 4).blk t).view.read (Elt Ideal) (scoreG m c) := by
  show (cfg0.win 4).cut (grid0.coords t) ((dats m 0 c).after 4 t) = _
  rw [after0_4]
  unfold out0_4
  rw [View.canon_unit_zero hz4]
  simp only [View.ld_unit_zero (S := S16x8x32x49) hz4, View.ld_unit_zero (S := S8x49x49) hz3, View.ld_unit_zero (S := S16x49x49) hz3]
  obtain ⟨-, -, -, -, ⟨e0, e1, e2, e3⟩, -⟩ := idx_facts t
  funext y
  obtain ⟨b, h, ch, p, rfl⟩ : ∃ (b : Fin 16) (h : Fin 8) (ch : Fin 32) (p : Fin 49), y = ix4 b h ch p := ⟨y 0, y 1, y 2, y 3, eq_ix4 y⟩
  show k0_pay1 (F := Ideal) (k0_pay2 (iblk m c 1 t)) (k0_pay4 (iblk m c 0 t) (iblk m c 1 t) (iblk m c 3 t) (iblk m c 2 t)) (ix4 b h ch p)
    = scoreG m c (((cfg0.win 4).blk t).view.emb (ix4 b h ch p))
  rw [score_point]
  unfold scoreG
  refine (scoreArr_ix4 _ _ _ _ _ h ch p).symm.trans (congrArg (scoreArr _ _ _ _) (funext fun a => Fin.ext ?_))
  match a with
  | ⟨0, _⟩ => show t.val * 16 + b.val = win0_4.index t (0 : Fin 4) * 16 + 1 * b.val; omega
  | ⟨1, _⟩ => show h.val = win0_4.index t (1 : Fin 4) * 8 + 1 * h.val; omega
  | ⟨2, _⟩ => show ch.val = win0_4.index t (2 : Fin 4) * 32 + 1 * ch.val; omega
  | ⟨3, _⟩ => show p.val = win0_4.index t (3 : Fin 4) * 49 + 1 * p.val; omega

/-! ## The arrays after the run -/

/-- An index of the attention array is in point `t`'s block iff each coordinate is in the block's range on its axis. -/
theorem mem_blk5 (t : Fin cfg0.N) (i : S2048x8x49x49.Idx) :
    i ∈ ((cfg0.win 5).blk t).view.set ↔ ∀ a : Fin 4, win0_5.index t a * S16x8x49x49.size a ≤ (i a).val ∧ (i a).val < win0_5.index t a * S16x8x49x49.size a + S16x8x49x49.size a := by
  show i ∈ ((View.whole main_v12_1).slice (win0_5.rect t)).set ↔ _
  rw [View.set_slice_whole, Rect.mem_set_unit]
  exact Iff.rfl

/-- Batch entry `b` lies in the block of point `b / 16`: the 128 blocks of 16 entries cover the 2048. -/
theorem cover5 (i : S2048x8x49x49.Idx) :
    ∃ t : Fin cfg0.N, (cfg0.win 5).flush t = true ∧ i ∈ ((cfg0.win 5).blk t).view.set := by
  have h0 : (i 0).val < 2048 := (i 0).isLt
  have h1 : (i 1).val < 8 := (i 1).isLt
  have h2 : (i 2).val < 49 := (i 2).isLt
  have h3 : (i 3).val < 49 := (i 3).isLt
  have hN : cfg0.N = 128 := N_0
  obtain ⟨t, ht⟩ : ∃ t : Fin cfg0.N, t.val = (i 0).val / 16 := ⟨⟨(i 0).val / 16, by rw [hN]; omega⟩, rfl⟩
  obtain ⟨-, -, -, -, -, ⟨e0, e1, e2, e3⟩⟩ := idx_facts t
  refine ⟨t, flush0_5 t, ?_⟩
  rw [mem_blk5]
  intro a
  match a with
  | ⟨0, _⟩ => show win0_5.index t (0 : Fin 4) * 16 ≤ (i 0).val ∧ (i 0).val < win0_5.index t (0 : Fin 4) * 16 + 16; omega
  | ⟨1, _⟩ => show win0_5.index t (1 : Fin 4) * 8 ≤ (i 1).val ∧ (i 1).val < win0_5.index t (1 : Fin 4) * 8 + 8; omega
  | ⟨2, _⟩ => show win0_5.index t (2 : Fin 4) * 49 ≤ (i 2).val ∧ (i 2).val < win0_5.index t (2 : Fin 4) * 49 + 49; omega
  | ⟨3, _⟩ => show win0_5.index t (3 : Fin 4) * 49 ≤ (i 3).val ∧ (i 3).val < win0_5.index t (3 : Fin 4) * 49 + 49; omega

theorem mem_blk4 (t : Fin cfg0.N) (i : S2048x8x32x49.Idx) :
    i ∈ ((cfg0.win 4).blk t).view.set ↔ ∀ a : Fin 4, win0_4.index t a * S16x8x32x49.size a ≤ (i a).val ∧ (i a).val < win0_4.index t a * S16x8x32x49.size a + S16x8x32x49.size a := by
  show i ∈ ((View.whole main_v12_0).slice (win0_4.rect t)).set ↔ _
  rw [View.set_slice_whole, Rect.mem_set_unit]
  exact Iff.rfl

theorem cover4 (i : S2048x8x32x49.Idx) :
    ∃ t : Fin cfg0.N, (cfg0.win 4).flush t = true ∧ i ∈ ((cfg0.win 4).blk t).view.set := by
  have h0 : (i 0).val < 2048 := (i 0).isLt
  have h1 : (i 1).val < 8 := (i 1).isLt
  have h2 : (i 2).val < 32 := (i 2).isLt
  have h3 : (i 3).val < 49 := (i 3).isLt
  have hN : cfg0.N = 128 := N_0
  obtain ⟨t, ht⟩ : ∃ t : Fin cfg0.N, t.val = (i 0).val / 16 := ⟨⟨(i 0).val / 16, by rw [hN]; omega⟩, rfl⟩
  obtain ⟨-, -, -, -, ⟨e0, e1, e2, e3⟩, -⟩ := idx_facts t
  refine ⟨t, flush0_4 t, ?_⟩
  rw [mem_blk4]
  intro a
  match a with
  | ⟨0, _⟩ => show win0_4.index t (0 : Fin 4) * 16 ≤ (i 0).val ∧ (i 0).val < win0_4.index t (0 : Fin 4) * 16 + 16; omega
  | ⟨1, _⟩ => show win0_4.index t (1 : Fin 4) * 8 ≤ (i 1).val ∧ (i 1).val < win0_4.index t (1 : Fin 4) * 8 + 8; omega
  | ⟨2, _⟩ => show win0_4.index t (2 : Fin 4) * 32 ≤ (i 2).val ∧ (i 2).val < win0_4.index t (2 : Fin 4) * 32 + 32; omega
  | ⟨3, _⟩ => show win0_4.index t (3 : Fin 4) * 49 ≤ (i 3).val ∧ (i 3).val < win0_4.index t (3 : Fin 4) * 49 + 49; omega

/-- The attention array after the run. -/
theorem final5 (c : Dev nD) : (dats m 0 c).arrAt 5 cfg0.N = attnG m c :=
  (dats m 0 c).arrAt_eq_of_cover 5 (attnG m c) (fun t _ => flushed5_eq m c t) cover5

/-- The output array after the run, before its last re-laying. -/
theorem final4 (c : Dev nD) : (dats m 0 c).arrAt 4 cfg0.N = scoreG m c :=
  (dats m 0 c).arrAt_eq_of_cover 4 (scoreG m c) (fun t _ => flushed4_eq m c t) cover4

/-! ## The run, read -/

open Idealize.ShloMosaic.StableHlo in
/-- The query array the region finds is the first argument re-laid as [2048, 8, 32, 49]. -/
theorem V_v0 (c : Dev nD) : (V m c main_v0 : S2048x8x32x49.Idx → EReal)
    = shapeCast S2048x8x32x49 (m ((c.tc : Thread nD τ).loc main_arg0)) shapeCasts_S2048x256x7x7_S2048x8x32x49 := by
  show StableHlo.after hostOps0 (fun b => m (c, b)) (Proc.devRef .tc main_v0) = _
  after_results
  rfl

open Idealize.ShloMosaic.StableHlo in
/-- The key array the region finds is the second argument re-laid likewise. -/
theorem V_v1 (c : Dev nD) : (V m c main_v1 : S2048x8x32x49.Idx → EReal)
    = shapeCast S2048x8x32x49 (m ((c.tc : Thread nD τ).loc main_arg1)) shapeCasts_S2048x256x7x7_S2048x8x32x49 := by
  show StableHlo.after hostOps0 (fun b => m (c, b)) (Proc.devRef .tc main_v1) = _
  after_results
  rfl

open Idealize.ShloMosaic.StableHlo in
/-- The program's first result: the output array re-laid as [2048, 256, 7, 7] by the one line after the region. -/
theorem tail13 (c : Dev nD) :
    Pipeline.afterTail₀ cfgs (dats m) 0 (V0 m) [hostOps1] c main_v13
      = shapeCast S2048x256x7x7 (scoreG m c) shapeCasts_S2048x8x32x49_S2048x256x7x7 := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.tc.devRef main_v12_0)
      = scoreG m c := (Pipeline.withArrays_arr spec0 launch0.win.arr_inj c _ _ 4).trans (final4 m c)
  rw [e]
  rfl

/-- THE RUN: every weakly fair execution ends with the first result at the output array re-laid, the second at the
    attention array, and the arguments as launched. -/
theorem run : θ_run defs (onTc (τ := τ) (main (F := Ideal))) ⟨m, fun _ => 0, ρ⟩ fun r => ∀ c : Dev nD,
      r.2.mem ((c.tc : Thread nD τ).loc main_v13) = shapeCast S2048x256x7x7 (scoreG m c) shapeCasts_S2048x8x32x49_S2048x256x7x7
      ∧ r.2.mem ((c.tc : Thread nD τ).loc main_v12_1) = attnG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v13 (Pipeline.mem_restRefs_of main_v13 (by decide) (by decide))).trans (tail13 m c),
      ((h c).1 5).trans (final5 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.ArrayValue

end
-- ==== Proof.RefHead.lean ====
/-
  The reference program, read as window attention.

  The reference's stages, read at an index with literal coordinates, are the quantities of the window-attention
  specification: the logits (scaled query-key product plus the head's bias plus the window's mask), the row
  maximum, the shifted exponentials, their row sums, the normalised weights, and the weighted sum of the keys.
  The two final statements say that the reference's attention array and its output array (before the last
  re-layout) are the specification's arrays over the re-laid queries and keys, the mask and the gathered bias.
-/
import proofs.«151222_j25718264168552_1_alg».proof.Proof.Gen.ReferenceIdeal.Read
import proofs.«151222_j25718264168552_1_alg».proof.Proof.WindowHead
import Idealize.ShloMosaic.PureOps.Reduce

noncomputable section

namespace Cert.ReferenceIdeal.RefHead

open Cert.ReferenceIdeal Cert.ReferenceIdeal.Gen Cert.ReferenceIdeal.Read Idealize.ShloMosaic Idealize.ShloMosaic.ValueIdx Cert.WindowHead

/-! ## The composed index maps at literal coordinates -/

/-- The reshape to [32, 64, 8, 49, 49] and back is the identity on positions. -/
theorem idx18_idx22 (b : Fin 2048) (h : Fin 8) (t s : Fin 49) :
    idx_main_v18 (idx_main_v22 (ix4 b h t s)) = ix4 b h t s := by
  have hb := b.isLt; have hh := h.isLt; have ht := t.isLt; have hs := s.isLt
  funext a
  match a with
  | ⟨0, _⟩ => exact Fin.ext (by
      show ((((((((b.val * 8 + h.val) * 49 + t.val) * 49 + s.val) / 1229312) * 64 + (((b.val * 8 + h.val) * 49 + t.val) * 49 + s.val) / 19208 % 64) * 8 + (((b.val * 8 + h.val) * 49 + t.val) * 49 + s.val) / 2401 % 8) * 49 + (((b.val * 8 + h.val) * 49 + t.val) * 49 + s.val) / 49 % 49) * 49 + (((b.val * 8 + h.val) * 49 + t.val) * 49 + s.val) % 49) / 19208 = b.val
      omega)
  | ⟨1, _⟩ => exact Fin.ext (by
      show ((((((((b.val * 8 + h.val) * 49 + t.val) * 49 + s.val) / 1229312) * 64 + (((b.val * 8 + h.val) * 49 + t.val) * 49 + s.val) / 19208 % 64) * 8 + (((b.val * 8 + h.val) * 49 + t.val) * 49 + s.val) / 2401 % 8) * 49 + (((b.val * 8 + h.val) * 49 + t.val) * 49 + s.val) / 49 % 49) * 49 + (((b.val * 8 + h.val) * 49 + t.val) * 49 + s.val) % 49) / 2401 % 8 = h.val
      omega)
  | ⟨2, _⟩ => exact Fin.ext (by
      show ((((((((b.val * 8 + h.val) * 49 + t.val) * 49 + s.val) / 1229312) * 64 + (((b.val * 8 + h.val) * 49 + t.val) * 49 + s.val) / 19208 % 64) * 8 + (((b.val * 8 + h.val) * 49 + t.val) * 49 + s.val) / 2401 % 8) * 49 + (((b.val * 8 + h.val) * 49 + t.val) * 49 + s.val) / 49 % 49) * 49 + (((b.val * 8 + h.val) * 49 + t.val) * 49 + s.val) % 49) / 49 % 49 = t.val
      omega)
  | ⟨3, _⟩ => exact Fin.ext (by
      show ((((((((b.val * 8 + h.val) * 49 + t.val) * 49 + s.val) / 1229312) * 64 + (((b.val * 8 + h.val) * 49 + t.val) * 49 + s.val) / 19208 % 64) * 8 + (((b.val * 8 + h.val) * 49 + t.val) * 49 + s.val) / 2401 % 8) * 49 + (((b.val * 8 + h.val) * 49 + t.val) * 49 + s.val) / 49 % 49) * 49 + (((b.val * 8 + h.val) * 49 + t.val) * 49 + s.val) % 49) % 49 = s.val
      omega)

/-- The mask broadcast reads axis 1 of the five-axis index, which is the batch entry modulo 64. -/
theorem idx19_idx20_idx22 (b : Fin 2048) (h : Fin 8) (t s : Fin 49) :
    idx_main_v19 (idx_main_v20 (idx_main_v22 (ix4 b h t s))) = ix3 (maskWin b) t s := by
  have hb := b.isLt; have hh := h.isLt; have ht := t.isLt; have hs := s.isLt
  funext a
  match a with
  | ⟨0, _⟩ => exact Fin.ext (by
      show (((b.val * 8 + h.val) * 49 + t.val) * 49 + s.val) / 19208 % 64 = b.val % 64
      omega)
  | ⟨1, _⟩ => exact Fin.ext (by
      show (((b.val * 8 + h.val) * 49 + t.val) * 49 + s.val) / 49 % 49 = t.val
      omega)
  | ⟨2, _⟩ => exact Fin.ext (by
      show (((b.val * 8 + h.val) * 49 + t.val) * 49 + s.val) % 49 = s.val
      omega)

/-- The bias broadcast over the batch reads head, row and column. -/
theorem idx15_idx16 (b : Fin 2048) (h : Fin 8) (t s : Fin 49) :
    idx_main_v15 (idx_main_v16 (ix4 b h t s)) = ix3 h t s := by
  funext a
  match a with
  | ⟨0, _⟩ => rfl
  | ⟨1, _⟩ => rfl
  | ⟨2, _⟩ => rfl

/-- The first contraction reads the query at (batch, head, channel, row) … -/
theorem lidx2 (b : Fin 2048) (h : Fin 8) (t s : Fin 49) (c : Fin 32) :
    lidx_main_v2 (ix4 b h t s) c = ix4 b h c t := by
  funext a
  match a with
  | ⟨0, _⟩ => rfl
  | ⟨1, _⟩ => rfl
  | ⟨2, _⟩ => rfl
  | ⟨3, _⟩ => rfl

/-- … and the key at (batch, head, channel, column). -/
theorem ridx2 (b : Fin 2048) (h : Fin 8) (t s : Fin 49) (c : Fin 32) :
    ridx_main_v2 (ix4 b h t s) c = ix4 b h c s := by
  funext a
  match a with
  | ⟨0, _⟩ => rfl
  | ⟨1, _⟩ => rfl
  | ⟨2, _⟩ => rfl
  | ⟨3, _⟩ => rfl

/-- A row statistic broadcast back over the columns reads (batch, head, row). -/
theorem idx26_idx27 (b : Fin 2048) (h : Fin 8) (t s : Fin 49) :
    idx_main_v26 (idx_main_v27 (ix4 b h t s)) = ix3 b h t := by
  funext a
  match a with
  | ⟨0, _⟩ => rfl
  | ⟨1, _⟩ => rfl
  | ⟨2, _⟩ => rfl

theorem idx31_idx32 (b : Fin 2048) (h : Fin 8) (t s : Fin 49) :
    idx_main_v31 (idx_main_v32 (ix4 b h t s)) = ix3 b h t := by
  funext a
  match a with
  | ⟨0, _⟩ => rfl
  | ⟨1, _⟩ => rfl
  | ⟨2, _⟩ => rfl

/-- The row sum runs over the columns of (batch, head, row). -/
theorem idx30 (b : Fin 2048) (h : Fin 8) (t : Fin 49) (k : Fin 49) :
    idx_main_v30 (ix3 b h t) k = ix4 b h t k := by
  funext a
  match a with
  | ⟨0, _⟩ => rfl
  | ⟨1, _⟩ => rfl
  | ⟨2, _⟩ => rfl
  | ⟨3, _⟩ => rfl

/-- The second contraction reads the key at (batch, head, channel, column) … -/
theorem lidx34 (b : Fin 2048) (h : Fin 8) (c : Fin 32) (t : Fin 49) (k : Fin 49) :
    lidx_main_v34 (ix4 b h c t) k = ix4 b h c k := by
  funext a
  match a with
  | ⟨0, _⟩ => rfl
  | ⟨1, _⟩ => rfl
  | ⟨2, _⟩ => rfl
  | ⟨3, _⟩ => rfl

/-- … and the attention weight at (batch, head, row, column). -/
theorem ridx34 (b : Fin 2048) (h : Fin 8) (c : Fin 32) (t : Fin 49) (k : Fin 49) :
    ridx_main_v34 (ix4 b h c t) k = ix4 b h t k := by
  funext a
  match a with
  | ⟨0, _⟩ => rfl
  | ⟨1, _⟩ => rfl
  | ⟨2, _⟩ => rfl
  | ⟨3, _⟩ => rfl

/-! ## The stages at literal coordinates -/

/-- The logits of batch entry `b`, head `h`, as the specification reads them from the whole arrays. -/
abbrev logits (x0 x1 : (⟨S2048x256x7x7, .f32⟩ : BufTy).Contents (Elt Ideal)) (x3 : (⟨S64x49x49, .f32⟩ : BufTy).Contents (Elt Ideal)) (x4 : (⟨S169x8, .f32⟩ : BufTy).Contents (Elt Ideal)) (x5 : (⟨S49x49, .i32⟩ : BufTy).Contents (Elt Ideal))
    (b : Fin 2048) (h : Fin 8) : Fin 49 → Fin 49 → EReal :=
  logit (fun c t' => val_main_v0 (F := Ideal) x0 (ix4 b h c t')) (fun c s' => val_main_v1 (F := Ideal) x1 (ix4 b h c s'))
    (fun t' s' => val_main_v14 (F := Ideal) x4 x5 (ix3 h t' s')) (fun t' s' => x3 (ix3 (maskWin b) t' s'))

/-- Stage 22 holds the logits: the scaled query-key product, plus the bias, plus the mask. -/
theorem v22_ix4 (x0 x1 : (⟨S2048x256x7x7, .f32⟩ : BufTy).Contents (Elt Ideal)) (x3 : (⟨S64x49x49, .f32⟩ : BufTy).Contents (Elt Ideal)) (x4 : (⟨S169x8, .f32⟩ : BufTy).Contents (Elt Ideal)) (x5 : (⟨S49x49, .i32⟩ : BufTy).Contents (Elt Ideal))
    (b : Fin 2048) (h : Fin 8) (t s : Fin 49) :
    val_main_v22 (F := Ideal) x0 x1 x3 x4 x5 (ix4 b h t s) = logits x0 x1 x3 x4 x5 b h t s := by
  rw [val_main_v22_apply, val_main_v21_apply, val_main_v18_apply, val_main_v20_apply, val_main_v19_apply,
    idx18_idx22, idx19_idx20_idx22, val_main_v17_apply, val_main_v4_apply, val_main_v2_apply, val_main_v3_apply,
    val_main_cst_apply, val_main_v16_apply, val_main_v15_apply, idx15_idx16]
  simp only [lidx2, ridx2]
  unfold logits
  generalize val_main_v0 (F := Ideal) x0 = Q
  generalize val_main_v1 (F := Ideal) x1 = K
  generalize val_main_v14 (F := Ideal) x4 x5 = B
  rfl

/-- The shape fact of the two row reductions, in the form that names the inserted index. -/
theorem red3 : S2048x8x49x49.Reduces [3] S2048x8x49 := by decide

/-- The index over (batch, head, row) with column `k` inserted. -/
theorem lift_ix3 (b : Fin 2048) (h : Fin 8) (t : Fin 49) (k : Fin 49) :
    red3.lift (ix3 b h t) k = ix4 b h t k := by
  funext a
  match a with
  | ⟨0, _⟩ => rfl
  | ⟨1, _⟩ => rfl
  | ⟨2, _⟩ => rfl
  | ⟨3, _⟩ => rfl

/-- The maximum reduction over the columns, at (batch, head, row): the fold of `max` from minus infinity over the row. -/
theorem hostMax_ix3 (X : (⟨S2048x8x49x49, .f32⟩ : BufTy).Contents (Elt Ideal)) (b : Fin 2048) (h : Fin 8) (t : Fin 49) :
    Host.reduce (FloatOps.maximumf (F := Ideal) (φ := .f32)) X (val_main_cst_1 (F := Ideal)) reducesTo_S2048x8x49x49_S2048x8x49_d3 h_S_ (ix3 b h t)
      = (Finset.univ : Finset (Fin 49)).fold max negInf (fun s' => X (ix4 b h t s')) := by
  refine (Host.reduce_eq_fold_single (FloatOps.maximumf (F := Ideal) (φ := .f32)) X _ _ red3 _ _).trans ?_
  have e : X ∘ red3.lift (ix3 b h t) = fun s' : Fin 49 => X (ix4 b h t s') :=
    funext fun k => congrArg X (lift_ix3 b h t k)
  rw [e]
  rfl

/-- Stage 25 holds the row maximum of the logits. -/
theorem v25_ix3 (x0 x1 : (⟨S2048x256x7x7, .f32⟩ : BufTy).Contents (Elt Ideal)) (x3 : (⟨S64x49x49, .f32⟩ : BufTy).Contents (Elt Ideal)) (x4 : (⟨S169x8, .f32⟩ : BufTy).Contents (Elt Ideal)) (x5 : (⟨S49x49, .i32⟩ : BufTy).Contents (Elt Ideal))
    (b : Fin 2048) (h : Fin 8) (t : Fin 49) :
    val_main_v25 (F := Ideal) x0 x1 x3 x4 x5 (ix3 b h t) = rowMax (logits x0 x1 x3 x4 x5 b h t) := by
  rw [val_main_v25_apply, val_main_v24_apply, val_main_cst_2_apply]
  unfold val_main_v23
  rw [hostMax_ix3]
  simp only [v22_ix4]
  rfl

/-- Stage 29 holds the exponentials of the logits shifted by their row maximum. -/
theorem v29_ix4 (x0 x1 : (⟨S2048x256x7x7, .f32⟩ : BufTy).Contents (Elt Ideal)) (x3 : (⟨S64x49x49, .f32⟩ : BufTy).Contents (Elt Ideal)) (x4 : (⟨S169x8, .f32⟩ : BufTy).Contents (Elt Ideal)) (x5 : (⟨S49x49, .i32⟩ : BufTy).Contents (Elt Ideal))
    (b : Fin 2048) (h : Fin 8) (t s : Fin 49) :
    val_main_v29 (F := Ideal) x0 x1 x3 x4 x5 (ix4 b h t s)
      = Ideal.exp (logits x0 x1 x3 x4 x5 b h t s - rowMax (logits x0 x1 x3 x4 x5 b h t)) := by
  rw [val_main_v29_apply, val_main_v28_apply, val_main_v27_apply, val_main_v26_apply, idx26_idx27, v22_ix4, v25_ix3]
  rfl

/-- Stage 30 holds the row sums of those exponentials (the reduction starts from zero). -/
theorem v30_ix3 (x0 x1 : (⟨S2048x256x7x7, .f32⟩ : BufTy).Contents (Elt Ideal)) (x3 : (⟨S64x49x49, .f32⟩ : BufTy).Contents (Elt Ideal)) (x4 : (⟨S169x8, .f32⟩ : BufTy).Contents (Elt Ideal)) (x5 : (⟨S49x49, .i32⟩ : BufTy).Contents (Elt Ideal))
    (b : Fin 2048) (h : Fin 8) (t : Fin 49) :
    val_main_v30 (F := Ideal) x0 x1 x3 x4 x5 (ix3 b h t)
      = ∑ s' : Fin 49, Ideal.exp (logits x0 x1 x3 x4 x5 b h t s' - rowMax (logits x0 x1 x3 x4 x5 b h t)) := by
  rw [val_main_v30_apply, val_main_cst_3_apply]
  simp only [idx30, v29_ix4]
  show Ideal.ofBits .f32 0x00000000#32 + _ = _
  rw [Ideal.ofBits_zero_f32, zero_add]

/-- Stage 33 holds the softmax of the logits. -/
theorem v33_ix4 (x0 x1 : (⟨S2048x256x7x7, .f32⟩ : BufTy).Contents (Elt Ideal)) (x3 : (⟨S64x49x49, .f32⟩ : BufTy).Contents (Elt Ideal)) (x4 : (⟨S169x8, .f32⟩ : BufTy).Contents (Elt Ideal)) (x5 : (⟨S49x49, .i32⟩ : BufTy).Contents (Elt Ideal))
    (b : Fin 2048) (h : Fin 8) (t s : Fin 49) :
    val_main_v33 (F := Ideal) x0 x1 x3 x4 x5 (ix4 b h t s) = softmax (logits x0 x1 x3 x4 x5 b h) t s := by
  rw [val_main_v33_apply, val_main_v32_apply, val_main_v31_apply, idx31_idx32, v29_ix4, v30_ix3]
  rfl

/-- Stage 34 holds the keys averaged with the attention weights. -/
theorem v34_ix4 (x0 x1 : (⟨S2048x256x7x7, .f32⟩ : BufTy).Contents (Elt Ideal)) (x3 : (⟨S64x49x49, .f32⟩ : BufTy).Contents (Elt Ideal)) (x4 : (⟨S169x8, .f32⟩ : BufTy).Contents (Elt Ideal)) (x5 : (⟨S49x49, .i32⟩ : BufTy).Contents (Elt Ideal))
    (b : Fin 2048) (h : Fin 8) (c : Fin 32) (t : Fin 49) :
    val_main_v34 (F := Ideal) x0 x1 x3 x4 x5 (ix4 b h c t)
      = ∑ s : Fin 49, val_main_v1 (F := Ideal) x1 (ix4 b h c s) * softmax (logits x0 x1 x3 x4 x5 b h) t s := by
  rw [val_main_v34_apply]
  simp only [lidx34, ridx34, v33_ix4]

/-! ## The two arrays -/

/-- The reference's attention array is the specification's. -/
theorem attn_eq (x0 x1 : (⟨S2048x256x7x7, .f32⟩ : BufTy).Contents (Elt Ideal)) (x3 : (⟨S64x49x49, .f32⟩ : BufTy).Contents (Elt Ideal)) (x4 : (⟨S169x8, .f32⟩ : BufTy).Contents (Elt Ideal)) (x5 : (⟨S49x49, .i32⟩ : BufTy).Contents (Elt Ideal)) :
    val_main_v33 (F := Ideal) x0 x1 x3 x4 x5
      = attnArr (val_main_v0 (F := Ideal) x0) (val_main_v1 (F := Ideal) x1) x3 (val_main_v14 (F := Ideal) x4 x5) := by
  funext i
  obtain ⟨b, h, t, s, rfl⟩ : ∃ (b : Fin 2048) (h : Fin 8) (t s : Fin 49), i = ix4 b h t s :=
    ⟨i 0, i 1, i 2, i 3, eq_ix4 i⟩
  rw [v33_ix4, attnArr_ix4]
  rfl

/-- The reference's output array, before its last re-layout, is the specification's. -/
theorem score_eq (x0 x1 : (⟨S2048x256x7x7, .f32⟩ : BufTy).Contents (Elt Ideal)) (x3 : (⟨S64x49x49, .f32⟩ : BufTy).Contents (Elt Ideal)) (x4 : (⟨S169x8, .f32⟩ : BufTy).Contents (Elt Ideal)) (x5 : (⟨S49x49, .i32⟩ : BufTy).Contents (Elt Ideal)) :
    val_main_v34 (F := Ideal) x0 x1 x3 x4 x5
      = scoreArr (val_main_v0 (F := Ideal) x0) (val_main_v1 (F := Ideal) x1) x3 (val_main_v14 (F := Ideal) x4 x5) := by
  funext i
  obtain ⟨b, h, c, t, rfl⟩ : ∃ (b : Fin 2048) (h : Fin 8) (c : Fin 32) (t : Fin 49), i = ix4 b h c t :=
    ⟨i 0, i 1, i 2, i 3, eq_ix4 i⟩
  rw [v34_ix4, scoreArr_ix4]
  rfl

end Cert.ReferenceIdeal.RefHead

end
-- ==== Proof.lean ====
/-
  Window attention, kernel against reference, on the extended reals.

  Both programs compute, for each of 2048 windows and 8 heads, the attention weights
  softmax over s of ((sum over c of q[c, t] k[c, s]) * scale + bias[t, s] + mask[t, s]) and the output
  sum over s of k[c, s] * weight[t, s] (`Cert.WindowHead`): the kernel 16 windows per grid point, 128 slabs at a time
  (`Cert.KernelIdeal.BlockHead`, `Cert.KernelIdeal.ArrayValue`), the reference on the whole arrays
  (`Cert.ReferenceIdeal.RefHead`). They agree operation by operation — the same scale word, the same order of the
  additions, the maximum started from minus infinity on both sides, a quotient on both sides, key times weight in the
  second product on both sides — so no law of arithmetic beyond the re-indexing of the sums is used, and the finiteness
  of the inputs is never opened. The query and key arrays are the same re-laying of the arguments in both programs,
  the bias the same gather of the table (never opened), the last re-laying of the output the same.
  No operation of the kernel is rewritten for the reading on the extended reals: its idealization is its own text, and
  the claim that relates the two has nothing to state.
-/
import proofs.«151222_j25718264168552_1_alg».proof.Defs
import proofs.«151222_j25718264168552_1_alg».proof.Proof.Gen.Kernel
import proofs.«151222_j25718264168552_1_alg».proof.Proof.Gen.Kernel.Frame
import proofs.«151222_j25718264168552_1_alg».proof.Proof.Gen.KernelIdeal
import proofs.«151222_j25718264168552_1_alg».proof.Proof.Gen.KernelIdeal.Frame
import proofs.«151222_j25718264168552_1_alg».proof.Proof.Gen.ReferenceIdeal
import proofs.«151222_j25718264168552_1_alg».proof.Proof.Gen.Pre_finite_inputs
import proofs.«151222_j25718264168552_1_alg».proof.Proof.Gen.ReferenceIdeal.Run
import proofs.«151222_j25718264168552_1_alg».proof.Proof.Gen.ReferenceIdeal.Read
import proofs.«151222_j25718264168552_1_alg».proof.Proof.ArrayValue
import proofs.«151222_j25718264168552_1_alg».proof.Proof.RefHead
import Idealize.ShloMosaic.Adequacy
import Idealize.ShloMosaic.Init

set_option maxRecDepth 16384

noncomputable section

namespace Cert.Proof

open Idealize.ShloMosaic Idealize.ShloMosaic.TcCoe Idealize.SL.Sem Cert.WindowHead

/-! ## The arrays the kernel's region finds are the reference's first stages -/

section Bridge
open Cert.KernelIdeal Cert.KernelIdeal.Gen Cert.KernelIdeal.ArrayValue

variable (m : (ℓ : Loc nD τ sig) → Buf (Elt Ideal) ℓ)

open Idealize.ShloMosaic.StableHlo in
/-- The bias the region finds — rows of the table gathered at the index array (an index below zero moved up by 169),
    re-laid [49, 49, 8] and turned heads-first — is the reference's stage of the same five operations. -/
theorem bias_eq (c : Dev nD) : (V m c main_v11 : S8x49x49.Idx → EReal)
    = Cert.ReferenceIdeal.Read.val_main_v14 (F := Ideal) (m ((c.tc : Thread nD τ).loc main_arg4)) (m ((c.tc : Thread nD τ).loc main_arg5)) := by
  show StableHlo.after hostOps0 (fun b => m (c, b)) (Proc.devRef .tc main_v11) = _
  after_results
  rfl

/-- The kernel's attention array is the specification's over the reference's re-laid arguments. -/
theorem attnG_eq (c : Dev nD) : attnG m c
    = attnArr (Cert.ReferenceIdeal.Read.val_main_v0 (F := Ideal) (m ((c.tc : Thread nD τ).loc main_arg0)))
        (Cert.ReferenceIdeal.Read.val_main_v1 (F := Ideal) (m ((c.tc : Thread nD τ).loc main_arg1)))
        (m ((c.tc : Thread nD τ).loc main_arg3))
        (Cert.ReferenceIdeal.Read.val_main_v14 (F := Ideal) (m ((c.tc : Thread nD τ).loc main_arg4)) (m ((c.tc : Thread nD τ).loc main_arg5))) := by
  unfold attnG
  rw [V_v0, V_v1, V_main_arg3, bias_eq]
  rfl

/-- The kernel's output array likewise. -/
theorem scoreG_eq (c : Dev nD) : scoreG m c
    = scoreArr (Cert.ReferenceIdeal.Read.val_main_v0 (F := Ideal) (m ((c.tc : Thread nD τ).loc main_arg0)))
        (Cert.ReferenceIdeal.Read.val_main_v1 (F := Ideal) (m ((c.tc : Thread nD τ).loc main_arg1)))
        (m ((c.tc : Thread nD τ).loc main_arg3))
        (Cert.ReferenceIdeal.Read.val_main_v14 (F := Ideal) (m ((c.tc : Thread nD τ).loc main_arg4)) (m ((c.tc : Thread nD τ).loc main_arg5))) := by
  unfold scoreG
  rw [V_v0, V_v1, V_main_arg3, bias_eq]
  rfl

end Bridge

/-! ## The claims -/

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the output at the specification's output array re-laid as [2048, 256, 7, 7] and the weights at
    its attention array, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq, (hagree c).1, (hagree c).2.1, (hagree c).2.2.2.1, (hagree c).2.2.2.2.1, (hagree c).2.2.2.2.2]
    unfold Cert.ReferenceIdeal.Read.val_main_v35
    rw [Cert.ReferenceIdeal.RefHead.score_eq, scoreG_eq]
  · rw [Cert.ReferenceIdeal.Read.val_main_v33_eq, (hagree c).1, (hagree c).2.1, (hagree c).2.2.2.1, (hagree c).2.2.2.2.1, (hagree c).2.2.2.2.2]
    rw [Cert.ReferenceIdeal.RefHead.attn_eq, attnG_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
